-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩

abbrev nBuf : Space → Nat
  | .hbm => 87
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x1, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x1, .f32⟩
  | .hbm, ⟨65, _⟩ => ⟨S1x64, .f32⟩
  | .hbm, ⟨66, _⟩ => ⟨S100000x64, .f32⟩
  | .hbm, ⟨67, _⟩ => ⟨S100000x40, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x40, .f32⟩
  | .hbm, ⟨77, _⟩ => ⟨S1600000x1, .f32⟩
  | .hbm, ⟨78, _⟩ => ⟨S1600000x40, .f32⟩
  | .hbm, ⟨79, _⟩ => ⟨S1600000x40, .f32⟩
  | .hbm, ⟨80, _⟩ => ⟨S_, .f32⟩
  | .hbm, ⟨81, _⟩ => ⟨S100000x40, .f32⟩
  | .hbm, ⟨82, _⟩ => ⟨S1600000x1, .i32⟩
  | .hbm, ⟨83, _⟩ => ⟨S100000x40, .f32⟩
  | .hbm, ⟨84, _⟩ => ⟨S100000x1, .f32⟩
  | .hbm, ⟨85, _⟩ => ⟨S1x40, .f32⟩
  | .hbm, ⟨86, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S5000x1_S5000x40 : S5000x1.Broadcasts S5000x40
  broadcasts_S1x40_S5000x40 : S1x40.Broadcasts S5000x40
  reduces_S5000x40_S5000 : S5000x40.Reduces [1] S5000
  shapeCasts_S5000_S5000x1 : S5000.ShapeCasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x40, .f32⟩
  | 6 => ⟨S40, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x40, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x40, .f32⟩
  | 119 => ⟨S1600000x1, .f32⟩
  | 120 => ⟨S1600000x40, .f32⟩
  | 121 => ⟨S1600000x40, .f32⟩
  | 122 => ⟨S_, .f32⟩
  | 123 => ⟨S100000x40, .f32⟩
  | 124 => ⟨S1600000x1, .i32⟩
  | 125 => ⟨S100000x40, .f32⟩
  | 126 => ⟨S100000, .f32⟩
  | 127 => ⟨S100000x1, .f32⟩
  | _ => ⟨S100000x128, .f32⟩

abbrev hbmTy0_1 (i : Nat) : BufTy := match i % 128 with
  | 0 => ⟨S100000x40, .f32⟩
  | 1 => ⟨S100000x40, .f32⟩
  | 2 => ⟨S100000x40, .f32⟩
  | 3 => ⟨S1x40, .f32⟩
  | 4 => ⟨S100000x40, .f32⟩
  | 5 => ⟨S100000x40, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x40, .f32⟩
  | 13 => ⟨S100000x40, .f32⟩
  | 14 => ⟨S100000x40, .f32⟩
  | 15 => ⟨S_, .f32⟩
  | 16 => ⟨S100000, .f32⟩
  | 17 => ⟨S100000x1, .f32⟩
  | 18 => ⟨S100000x1, .f32⟩
  | 19 => ⟨S100000x40, .f32⟩
  | 20 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named.  The program is four grid regions among stretches of host
  operations; the contents of the TensorCore's buffers at each boundary are a fold from the launch memory, and the last
  boundary's contents are `Gen.W9`.  Every weakly fair execution terminates, nothing faulting, in a state whose result
  buffer holds `Gen.W9` at the result's reference and whose argument buffers hold what they were launched with.
-/
import proofs.«133283_j49289044689250_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the nine segments, the final state read at every unscoped buffer: the result's buffer is among them,
    and each argument's buffer walks back through the fold to the launch memory. -/
theorem run_named : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Named

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibLaneFolds.lean ====
/-
  Reductions along the lanes of an `[a, b]` array, read at a row, on the extended reals, generic in the extents:
  * `laneMax_apply` / `laneSum_apply`: a vector unit's maximum and sum along the lanes, at row `p`, are the fold of
    `max` from the starting value, and the sum, over the row's `b` entries;
  * `hostLaneMax_apply`: the host's one-operand reduction with a maximum body along the same axis is the same fold,
    started at the initial value's one element.
  A fold of `max` is taken in any order (it is commutative and associative), so neither side's traversal order matters.
-/
import Idealize.ShloMosaic.Lib.ValueIdx
import Idealize.ShloMosaic.Lib.Pipeline.Value
import Idealize.ShloMosaic.PureOps.Ideal.Laws

noncomputable section

namespace Cert.LaneFolds

open Idealize.ShloMosaic Idealize.ShloMosaic.ValueIdx
open scoped BigOperators

/-- The maximum along the lanes, at row `p`: the fold of `max` from the starting value over the row's entries. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f : Fin b → EReal => (Finset.univ : Finset (Fin b)).fold max (Ideal.ofBits .f32 acc) f)
      (funext fun k => congrArg src (funext fun d => Fin.ext (by
        match d with
        | ⟨0, _⟩ => rfl
        | ⟨1, _⟩ => rfl))))

/-- The sum along the lanes, at row `p`: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's reduction with a maximum body along the lanes, at row `p`: the same fold, from the initial value. -/
theorem hostLaneMax_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (fun f : Fin b → EReal => (Finset.univ : Finset (Fin b)).fold max (init (Shape.Idx.first hu)) f)
      (funext fun k => congrArg x (funext fun d => Fin.ext (by
        match d with
        | ⟨0, _⟩ => rfl
        | ⟨1, _⟩ => rfl))))

end Cert.LaneFolds

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibGcnSelfLoop.lean ====
/-
  The dense stages of a graph convolution with self-loops, read entry by entry on the extended reals, generic in the
  row count `R` and the widths:
  * the feature transform `X · W` (`mmAt`, `mm`): as a vector unit's matrix product of operands rounded to bfloat16
    (the identity on the extended reals) into a zero accumulator, and as the host's `dot_general`;
  * the combine stage `agg + h · d + b` (`combAt`): the aggregated neighbours plus the node's own row scaled by its
    self-loop coefficient `d` (one per row) plus the bias `b` (one per column); the vector unit reads `d` as an
    `[R, 1]` column and `b` as a `[1, C]` row, each repeated along the other axis, the host broadcasts each vector in
    two steps;
  * the floor at zero (`reluAt`), as the maximum with a zero splat or with a broadcast zero;
  * the log-softmax along the lanes (`lsmRow`): `(v − M) − log Σ exp (v − M)` with `M` the row's maximum taken as a
    fold of `max` from the starting value; the host takes `max` of the starting value and that fold once more, which
    changes nothing since the fold is already above its starting value.
  No finiteness is needed anywhere: both spellings are the same operations on the same entries, term by term.
-/
import Idealize.ShloMosaic.Lib.ValueIdx
import Idealize.ShloMosaic.Lib.ValueLayout
import Idealize.ShloMosaic.Lib.Pipeline.Value
import Idealize.ShloMosaic.PureOps.Ideal.Laws
import proofs.«133283_j49289044689250_1_alg».proof.Proof.LibColumns
import proofs.«133283_j49289044689250_1_alg».proof.Proof.LibLaneFolds
import proofs.«133283_j49289044689250_1_alg».proof.Proof.LibMlpRows

noncomputable section

namespace Cert.GcnSelfLoop

open Idealize.ShloMosaic Idealize.ShloMosaic.ValueIdx Cert.Columns Cert.LaneFolds Cert.LibMlp
open scoped BigOperators

/-! ## The feature transform -/

/-- Entry `(p, q)` of `X · W`: row `p` of `X` times column `q` of `W`. -/
def mmAt {R K C : ℕ} (x : (⟨2, ![R, K]⟩ : Shape).Idx → EReal) (w : (⟨2, ![K, C]⟩ : Shape).Idx → EReal) (p : Fin R) (q : Fin C) : EReal :=
  ∑ k : Fin K, x (ix2 p k) * w (ix2 k q)

/-- `X · W` as one array. -/
def mm {R K C : ℕ} (x : (⟨2, ![R, K]⟩ : Shape).Idx → EReal) (w : (⟨2, ![K, C]⟩ : Shape).Idx → EReal) : (⟨2, ![R, C]⟩ : Shape).Idx → EReal :=
  fun i => mmAt x w (i 0) (i 1)

theorem mm_ix2 {R K C : ℕ} (x : (⟨2, ![R, K]⟩ : Shape).Idx → EReal) (w : (⟨2, ![K, C]⟩ : Shape).Idx → EReal) (p : Fin R) (q : Fin C) :
    mm x w (ix2 p q) = mmAt x w p q := rfl

/-- The vector unit's product of the two operands rounded to bfloat16, into the zero accumulator, at an entry. -/
theorem kernel_mm_apply {R K C : ℕ} (d : DotDims ⟨2, ![R, K]⟩ ⟨2, ![K, C]⟩ ⟨2, ![R, C]⟩) (hd : d = DotDims.plain R K C)
    (x : FVec Ideal ⟨2, ![R, K]⟩ .f32) (w : FVec Ideal ⟨2, ![K, C]⟩ .f32) (ht : FTy.bf16.bits < FTy.f32.bits) (p : Fin R) (q : Fin C) :
    matmul d none (truncf .bf16 x ht) (truncf .bf16 w ht) (constant ⟨2, ![R, C]⟩ .f32 0x00000000#32) (ix2 p q) = mmAt x w p q := by
  subst hd
  simp only [mmAt, matmul, matmul_zero_plain, truncf_apply]

/-- The host's `dot_general` of the same operands, at an entry. -/
theorem host_mm_apply {R K C : ℕ} (d : DotDims ⟨2, ![R, K]⟩ ⟨2, ![K, C]⟩ ⟨2, ![R, C]⟩) (hd : d = DotDims.plain R K C)
    (x : FVec Ideal ⟨2, ![R, K]⟩ .f32) (w : FVec Ideal ⟨2, ![K, C]⟩ .f32) (p : Fin R) (q : Fin C) :
    Host.dotGeneral d none x w (ix2 p q) = mmAt x w p q := by
  subst hd
  simp only [mmAt, Host.dotGeneral, dotGeneral_plain]

/-! ## The combine stage -/

/-- Entry `(p, q)` of `agg + h · d + b`, with `d` per row and `b` per column. -/
def combAt {R C : ℕ} (h agg : (⟨2, ![R, C]⟩ : Shape).Idx → EReal) (d : Fin R → EReal) (b : Fin C → EReal) (p : Fin R) (q : Fin C) : EReal :=
  agg (ix2 p q) + h (ix2 p q) * d p + b q

/-- The vector unit's spelling: `d` an `[R, 1]` column repeated along the lanes, `b` a `[1, C]` row repeated down the rows. -/
theorem kernel_comb_apply {R C : ℕ} (h agg : FVec Ideal ⟨2, ![R, C]⟩ .f32) (dc : FVec Ideal ⟨2, ![R, 1]⟩ .f32) (br : FVec Ideal ⟨2, ![1, C]⟩ .f32)
    (hh : (⟨2, ![R, C]⟩ : Shape).ShapeCasts ⟨2, ![R, C]⟩) (hdc : (⟨2, ![R, 1]⟩ : Shape).ShapeCasts ⟨2, ![R, 1]⟩)
    (hbr : (⟨2, ![1, C]⟩ : Shape).ShapeCasts ⟨2, ![1, C]⟩)
    (hD : (⟨2, ![R, 1]⟩ : Shape).Broadcasts ⟨2, ![R, C]⟩) (hB : (⟨2, ![1, C]⟩ : Shape).Broadcasts ⟨2, ![R, C]⟩) (p : Fin R) (q : Fin C) :
    addf (addf (shapeCast ⟨2, ![R, C]⟩ agg hh) (mulf (shapeCast ⟨2, ![R, C]⟩ h hh) (broadcastTo ⟨2, ![R, C]⟩ (shapeCast ⟨2, ![R, 1]⟩ dc hdc) hD)))
        (broadcastTo ⟨2, ![R, C]⟩ (shapeCast ⟨2, ![1, C]⟩ br hbr) hB) (ix2 p q)
      = combAt h agg (fun r => dc (ix2 r (0 : Fin 1))) (fun k => br (ix2 (0 : Fin 1) k)) p q := by
  simp only [combAt, addf_apply, mulf_apply, shapeCast_self, broadcastTo_a1_ab_apply, ValueIdx.broadcastTo_1b_ab_apply]

/-- A vector broadcast to an `[R, 1]` column and then along `C` lanes reads its row's entry. -/
theorem host_column_apply {α : Type} {R C : ℕ} (d : (⟨1, ![R]⟩ : Shape).Idx → α)
    (hd : (⟨1, ![R]⟩ : Shape).BroadcastsInDim ⟨2, ![R, 1]⟩ ![0]) (hD : (⟨2, ![R, 1]⟩ : Shape).BroadcastsInDim ⟨2, ![R, C]⟩ ![0, 1])
    (p : Fin R) (q : Fin C) :
    broadcastInDim ⟨2, ![R, C]⟩ ![0, 1] hD (broadcastInDim ⟨2, ![R, 1]⟩ ![0] hd d) (ix2 p q) = d (ix1 p) := by
  rw [broadcastInDim_apply ![0, 1] hD _ (ix2 p q) (ix2 p (0 : Fin 1)) (fun a => by
    match a with
    | ⟨0, _⟩ => show p.val = if R = 1 then 0 else p.val; split <;> [(have := p.isLt; omega); rfl]
    | ⟨1, _⟩ => rfl)]
  exact broadcastInDim_apply ![0] hd _ (ix2 p (0 : Fin 1)) (ix1 p) (fun a => by
    match a with
    | ⟨0, _⟩ => show p.val = if R = 1 then 0 else p.val; split <;> [(have := p.isLt; omega); rfl])

/-- A vector broadcast to a `[1, C]` row and then down `R` rows reads its column's entry. -/
theorem host_row_apply {α : Type} {R C : ℕ} (b : (⟨1, ![C]⟩ : Shape).Idx → α)
    (hb : (⟨1, ![C]⟩ : Shape).BroadcastsInDim ⟨2, ![1, C]⟩ ![1]) (hB : (⟨2, ![1, C]⟩ : Shape).BroadcastsInDim ⟨2, ![R, C]⟩ ![0, 1])
    (p : Fin R) (q : Fin C) :
    broadcastInDim ⟨2, ![R, C]⟩ ![0, 1] hB (broadcastInDim ⟨2, ![1, C]⟩ ![1] hb b) (ix2 p q) = b (ix1 q) := by
  rw [broadcastInDim_apply ![0, 1] hB _ (ix2 p q) (ix2 (0 : Fin 1) q) (fun a => by
    match a with
    | ⟨0, _⟩ => rfl
    | ⟨1, _⟩ => show q.val = if C = 1 then 0 else q.val; split <;> [(have := q.isLt; omega); rfl])]
  exact broadcastInDim_apply ![1] hb _ (ix2 (0 : Fin 1) q) (ix1 q) (fun a => by
    match a with
    | ⟨0, _⟩ => show q.val = if C = 1 then 0 else q.val; split <;> [(have := q.isLt; omega); rfl])

/-- The host's spelling: each vector broadcast in two steps. -/
theorem host_comb_apply {R C : ℕ} (h agg : FVec Ideal ⟨2, ![R, C]⟩ .f32) (d : FVec Ideal ⟨1, ![R]⟩ .f32) (b : FVec Ideal ⟨1, ![C]⟩ .f32)
    (hd : (⟨1, ![R]⟩ : Shape).BroadcastsInDim ⟨2, ![R, 1]⟩ ![0]) (hD : (⟨2, ![R, 1]⟩ : Shape).BroadcastsInDim ⟨2, ![R, C]⟩ ![0, 1])
    (hb : (⟨1, ![C]⟩ : Shape).BroadcastsInDim ⟨2, ![1, C]⟩ ![1]) (hB : (⟨2, ![1, C]⟩ : Shape).BroadcastsInDim ⟨2, ![R, C]⟩ ![0, 1])
    (p : Fin R) (q : Fin C) :
    addf (addf agg (mulf h (broadcastInDim ⟨2, ![R, C]⟩ ![0, 1] hD (broadcastInDim ⟨2, ![R, 1]⟩ ![0] hd d))))
        (broadcastInDim ⟨2, ![R, C]⟩ ![0, 1] hB (broadcastInDim ⟨2, ![1, C]⟩ ![1] hb b)) (ix2 p q)
      = combAt h agg (fun r => d (ix1 r)) (fun k => b (ix1 k)) p q := by
  rw [addf_apply, addf_apply, mulf_apply, host_column_apply d hd hD p q, host_row_apply b hb hB p q]
  rfl

/-! ## The floor at zero -/

/-- `max v 0`, the zero being the binary32 zero word's value. -/
def reluAt (v : EReal) : EReal := max v (Ideal.ofBits .f32 0x00000000#32)

theorem kernel_relu_apply {s : Shape} (v : FVec Ideal s .f32) (i : s.Idx) :
    maximumf v (broadcast s (Scalar.ofBits .f32 0x00000000#32)) i = reluAt (v i) := rfl

theorem host_relu_apply {R C : ℕ} (v : FVec Ideal ⟨2, ![R, C]⟩ .f32) (hz : (⟨0, ![]⟩ : Shape).BroadcastsInDim ⟨2, ![R, C]⟩ ![])
    (p : Fin R) (q : Fin C) :
    maximumf v (broadcastInDim ⟨2, ![R, C]⟩ ![] hz (constant (F := Ideal) ⟨0, ![]⟩ .f32 0x00000000#32)) (ix2 p q) = reluAt (v (ix2 p q)) := by
  rw [maximumf_apply, broadcastInDim_apply ![] hz _ (ix2 p q) ix0 (fun a => a.elim0)]
  rfl

/-! ## The log-softmax along the lanes -/

/-- The row's maximum, as a fold of `max` from the value of the starting word. -/
def rowMax {C : ℕ} (row : Fin C → EReal) : EReal :=
  (Finset.univ : Finset (Fin C)).fold max (Ideal.ofBits .f32 0xFF800000#32) row

/-- Entry `q` of the log-softmax of one row. -/
def lsmRow {C : ℕ} (row : Fin C → EReal) (q : Fin C) : EReal :=
  (row q - rowMax row) - Ideal.log (∑ k : Fin C, Ideal.exp (row k - rowMax row))

/-- The fold of `max` is above its starting value, so one more `max` with that value changes nothing. -/
theorem max_start_rowMax {C : ℕ} (row : Fin C → EReal) : max (Ideal.ofBits .f32 0xFF800000#32) (rowMax row) = rowMax row := by
  unfold rowMax
  exact max_eq_right ((Finset.le_fold_max _).2 (Or.inl le_rfl))

/-- The vector unit's spelling: lane maximum and lane sum kept as `[R, 1]` columns and repeated along the lanes. -/
theorem kernel_lsm_apply {R C : ℕ} (v : FVec Ideal ⟨2, ![R, C]⟩ .f32)
    (hr : (⟨2, ![R, C]⟩ : Shape).Reduces [1] ⟨1, ![R]⟩) (hφ : FKind.Formats .f32)
    (hm : (0xFF800000#32 : BitVec 32) = FKind.maximumf.neutral .f32 hφ) (ha : (0x00000000#32 : BitVec 32) = FKind.add.neutral .f32 hφ)
    (hc : (⟨1, ![R]⟩ : Shape).ShapeCasts ⟨2, ![R, 1]⟩) (hD : (⟨2, ![R, 1]⟩ : Shape).Broadcasts ⟨2, ![R, C]⟩) (p : Fin R) (q : Fin C) :
    subf (subf v (broadcastTo ⟨2, ![R, C]⟩ (shapeCast ⟨2, ![R, 1]⟩ (multiReduction .maximumf [1] ⟨1, ![R]⟩ v 0xFF800000#32 hr hφ hm) hc) hD))
      (broadcastTo ⟨2, ![R, C]⟩ (log (shapeCast ⟨2, ![R, 1]⟩
        (multiReduction .add [1] ⟨1, ![R]⟩ (exp (subf v (broadcastTo ⟨2, ![R, C]⟩ (shapeCast ⟨2, ![R, 1]⟩ (multiReduction .maximumf [1] ⟨1, ![R]⟩ v 0xFF800000#32 hr hφ hm) hc) hD)))
          0x00000000#32 hr hφ ha) hc)) hD) (ix2 p q)
      = lsmRow (fun k => v (ix2 p k)) q := by
  have hmax : ∀ r : Fin R, multiReduction .maximumf [1] ⟨1, ![R]⟩ v 0xFF800000#32 hr hφ hm (ix1 r) = rowMax (fun k => v (ix2 r k)) :=
    fun r => laneMax_apply v _ hr hφ hm r
  have hsh : ∀ (r : Fin R) (k : Fin C),
      subf v (broadcastTo ⟨2, ![R, C]⟩ (shapeCast ⟨2, ![R, 1]⟩ (multiReduction .maximumf [1] ⟨1, ![R]⟩ v 0xFF800000#32 hr hφ hm) hc) hD) (ix2 r k)
        = v (ix2 r k) - rowMax (fun k => v (ix2 r k)) := fun r k => by
    rw [subf_apply, broadcastTo_a1_ab_apply, shapeCast_a_a1_apply, hmax]
  rw [subf_apply, hsh, broadcastTo_a1_ab_apply]
  show _ - Ideal.log (shapeCast ⟨2, ![R, 1]⟩ _ hc (ix2 p (0 : Fin 1))) = _
  rw [shapeCast_a_a1_apply, laneSum_apply]
  unfold lsmRow
  refine congrArg (fun s => _ - Ideal.log s) (Finset.sum_congr rfl fun k _ => ?_)
  show Ideal.exp (subf v _ (ix2 p k)) = _
  rw [hsh]

/-- The host's spelling, stage by stage: `mx` the reduce with a maximum body joined once more with the broadcast starting
    value, `sh` the operand minus that column broadcast in two steps, `sm` the host's sum of `exp sh` from zero; the result
    is `sh` minus the logarithm of that sum, broadcast the same way. -/
theorem host_lsm_apply {R C : ℕ} (v : FVec Ideal ⟨2, ![R, C]⟩ .f32)
    (hr' : (⟨2, ![R, C]⟩ : Shape).ReducesTo [1] ⟨1, ![R]⟩) (hr : (⟨2, ![R, C]⟩ : Shape).Reduces [1] ⟨1, ![R]⟩) (hu : 0 < (⟨0, ![]⟩ : Shape).numel)
    (hs : (⟨0, ![]⟩ : Shape).BroadcastsInDim ⟨1, ![R]⟩ ![])
    (hd : (⟨1, ![R]⟩ : Shape).BroadcastsInDim ⟨2, ![R, 1]⟩ ![0]) (hD : (⟨2, ![R, 1]⟩ : Shape).BroadcastsInDim ⟨2, ![R, C]⟩ ![0, 1])
    (mx : FVec Ideal ⟨1, ![R]⟩ .f32)
    (hmx : mx = maximumf (broadcastInDim ⟨1, ![R]⟩ ![] hs (constant (F := Ideal) ⟨0, ![]⟩ .f32 0xFF800000#32))
      (Host.reduce (FloatOps.maximumf (F := Ideal) (φ := .f32)) v (constant (F := Ideal) ⟨0, ![]⟩ .f32 0xFF800000#32) hr' hu))
    (sh : FVec Ideal ⟨2, ![R, C]⟩ .f32)
    (hsh : sh = subf v (broadcastInDim ⟨2, ![R, C]⟩ ![0, 1] hD (broadcastInDim ⟨2, ![R, 1]⟩ ![0] hd mx)))
    (sm : FVec Ideal ⟨1, ![R]⟩ .f32)
    (hsm : sm = Host.reduceAdd (Host.exp sh) (constant (F := Ideal) ⟨0, ![]⟩ .f32 0x00000000#32) hr' hu)
    (p : Fin R) (q : Fin C) :
    subf sh (broadcastInDim ⟨2, ![R, C]⟩ ![0, 1] hD (Host.log (broadcastInDim ⟨2, ![R, 1]⟩ ![0] hd sm))) (ix2 p q)
      = lsmRow (fun k => v (ix2 p k)) q := by
  have hmax : ∀ r : Fin R, mx (ix1 r) = rowMax (fun k => v (ix2 r k)) := fun r => by
    rw [hmx, maximumf_apply, hostLaneMax_apply v _ hr' hr hu r, broadcastInDim_apply ![] hs _ (ix1 r) ix0 (fun a => a.elim0)]
    exact max_start_rowMax _
  have hshift : ∀ (r : Fin R) (k : Fin C), sh (ix2 r k) = v (ix2 r k) - rowMax (fun k => v (ix2 r k)) := fun r k => by
    rw [hsh, subf_apply, host_column_apply mx hd hD r k, hmax]
  have hsum : sm (ix1 p) = ∑ k : Fin C, Ideal.exp (v (ix2 p k) - rowMax (fun k => v (ix2 p k))) := by
    rw [hsm]
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun k _ => ?_
    rw [show hr.lift (ix1 p) k = ix2 p k from funext fun a => Fin.ext (by
      match a with
      | ⟨0, _⟩ => rfl
      | ⟨1, _⟩ => rfl)]
    exact congrArg Ideal.exp (hshift p k)
  rw [subf_apply, hshift, broadcastInDim_apply ![0, 1] hD _ (ix2 p q) (ix2 p (0 : Fin 1)) (fun a => by
    match a with
    | ⟨0, _⟩ => show p.val = if R = 1 then 0 else p.val; split <;> [(have := p.isLt; omega); rfl]
    | ⟨1, _⟩ => rfl)]
  rw [show ∀ (x : FVec Ideal ⟨2, ![R, 1]⟩ .f32) (i : (⟨2, ![R, 1]⟩ : Shape).Idx), Host.log x i = Ideal.log (x i) from fun _ _ => rfl]
  rw [broadcastInDim_apply ![0] hd _ (ix2 p (0 : Fin 1)) (ix1 p) (fun a => by
    match a with
    | ⟨0, _⟩ => show p.val = if R = 1 then 0 else p.val; split <;> [(have := p.isLt; omega); rfl]), hsum]
  rfl

/-! ## The stages as whole arrays -/

/-- The combine stage floored at zero, every entry, from the column and row forms of `d` and `b`. -/
def combRelu {R C : ℕ} (h agg : (⟨2, ![R, C]⟩ : Shape).Idx → EReal) (dc : (⟨2, ![R, 1]⟩ : Shape).Idx → EReal) (br : (⟨2, ![1, C]⟩ : Shape).Idx → EReal) :
    (⟨2, ![R, C]⟩ : Shape).Idx → EReal :=
  fun i => reluAt (combAt h agg (fun r => dc (ix2 r (0 : Fin 1))) (fun k => br (ix2 (0 : Fin 1) k)) (i 0) (i 1))

/-- The combine stage followed by the log-softmax of each row. -/
def combLsm {R C : ℕ} (h agg : (⟨2, ![R, C]⟩ : Shape).Idx → EReal) (dc : (⟨2, ![R, 1]⟩ : Shape).Idx → EReal) (br : (⟨2, ![1, C]⟩ : Shape).Idx → EReal) :
    (⟨2, ![R, C]⟩ : Shape).Idx → EReal :=
  fun i => lsmRow (fun k => combAt h agg (fun r => dc (ix2 r (0 : Fin 1))) (fun k => br (ix2 (0 : Fin 1) k)) (i 0) k) (i 1)

end Cert.GcnSelfLoop

end
-- ==== Proof.Region0.lean ====
/-
  The feature transform, block by block: grid point `t` reads rows `5000 t …` of the left operand and the whole right
  operand, and writes the same rows of the product.  Entry `(r, q)` of a product depends on row `r` of the left operand
  only, so the blocks are restrictions of one whole-array function (`mm`), and the twenty blocks tile the array.
-/
import proofs.«133283_j49289044689250_1_alg».proof.Proof.Gen.KernelIdeal.Frame
import proofs.«133283_j49289044689250_1_alg».proof.Proof.LibGcnSelfLoop
import Idealize.ShloMosaic.Lib.Pipeline.Value
import Idealize.ShloMosaic.Lib.ValueIdx

set_option maxRecDepth 16384

noncomputable section

namespace Cert.KernelIdeal.Region0

open Cert.KernelIdeal Cert.KernelIdeal.Gen Cert.GcnSelfLoop
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zero2 : (![0, 0] : Fin 2 → Nat) = fun _ => 0 := funext fun a => by fin_cases a <;> rfl

/-- The body's arithmetic at an entry of the block: the block's row times the right operand's column. -/
theorem pay_apply (x : FVec Ideal S5000x128 .f32) (w : FVec Ideal S128x64 .f32) (p : Fin 5000) (q : Fin 64) :
    k0_pay1 (F := Ideal) x w (ix2 p q) = mmAt x w p q := by
  unfold k0_pay1
  exact kernel_mm_apply dot_S5000x128_S128x64_S5000x64_1_0_0_1_n_n rfl x w bitsLt_bf16_f32 p q

/-- Grid point `t` owns the rows `5000 t … 5000 t + 4999`: row `p` of its block is this row of the array. -/
def row (t : Fin cfg0.N) (p : Fin 5000) : Fin 100000 :=
  ⟨t.val * 5000 + p.val, by have ht : t.val < 20 := t.isLt; have hp := p.isLt; omega⟩

/-- The printed index maps, decided over the grid: the row-blocked windows sit at block `(t, 0)`, the right operand at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem emb_x (t : Fin cfg0.N) (p : Fin 5000) (k : Fin 128) : ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_w (t : Fin cfg0.N) (k : Fin 128) (q : Fin 64) : ((cfg0.win 1).blk t).view.emb (ix2 k q) = ix2 k q := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

theorem emb_out (t : Fin cfg0.N) (p : Fin 5000) (q : Fin 64) : ((cfg0.win 2).blk t).view.emb (ix2 p q) = ix2 (row t p) q := by
  obtain ⟨-, -, -, -, e0, e1⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 64 + 1 * q.val = q.val; omega

/-- Row `p` of block `t` of the left operand is row `5000 t + p` of the array, and the right operand is read whole: the
    block's entry is the array's. -/
theorem block_eq (X : S100000x128.Idx → EReal) (W : S128x64.Idx → EReal) (t : Fin cfg0.N) (p : Fin 5000) (q : Fin 64) :
    mmAt (R := 5000) (K := 128) (C := 64) (fun y => X (((cfg0.win 0).blk t).view.emb y)) (fun y => W (((cfg0.win 1).blk t).view.emb y)) p q
      = mm X W (((cfg0.win 2).blk t).view.emb (ix2 p q)) := by
  rw [emb_out]
  show (∑ k : Fin 128, X (((cfg0.win 0).blk t).view.emb (ix2 p k)) * W (((cfg0.win 1).blk t).view.emb (ix2 k q)))
    = ∑ k : Fin 128, X (ix2 (row t p) k) * W (ix2 k q)
  refine Finset.sum_congr rfl fun k _ => ?_
  rw [emb_x, emb_w]

/-- What grid point `t` writes back is block `t` of the product of the arrays as the region finds them. -/
theorem flushed_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  exact block_eq (V c main_arg0) (V c main_arg3) t p q

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row `r` lies in the block of point `r / 5000`: the twenty blocks tile the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < 20 := by omega
  obtain ⟨-, -, -, -, e0, e1⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e1]; omega

/-- The product array after the region: `mm` of the two arrays the region was entered with. -/
theorem arr_eq (c : Dev nD) : (dat0 V c).arrAt 2 cfg0.N = mm (V c main_arg0) (V c main_arg3) :=
  (dat0 V c).arrAt_eq_of_cover 2 _ (fun t _ => flushed_eq V c t) cover

end Cert.KernelIdeal.Region0

end
-- ==== Proof.Region1.lean ====
/-
  The combine stage floored at zero, block by block: grid point `t` reads rows `5000 t …` of the transformed features, of
  the aggregated neighbours and of the self-loop column, and the whole bias row, and writes the same rows of the result.
  Every entry of the result depends on its own row only, so the blocks are restrictions of one whole-array function
  (`combRelu`), and the twenty blocks tile the array.
-/
import proofs.«133283_j49289044689250_1_alg».proof.Proof.Gen.KernelIdeal.Frame
import proofs.«133283_j49289044689250_1_alg».proof.Proof.LibGcnSelfLoop
import Idealize.ShloMosaic.Lib.Pipeline.Value
import Idealize.ShloMosaic.Lib.ValueIdx

set_option maxRecDepth 16384

noncomputable section

namespace Cert.KernelIdeal.Region1

open Cert.KernelIdeal Cert.KernelIdeal.Gen Cert.GcnSelfLoop
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's arithmetic at an entry of the block, from the four loaded blocks. -/
theorem pay_apply (h agg : FVec Ideal S5000x64 .f32) (dc : FVec Ideal S5000x1 .f32) (br : FVec Ideal S1x64 .f32) (p : Fin 5000) (q : Fin 64) :
    k1_pay1 (F := Ideal) h agg dc br (ix2 p q) = reluAt (combAt h agg (fun r => dc (ix2 r (0 : Fin 1))) (fun k => br (ix2 (0 : Fin 1) k)) p q) := by
  unfold k1_pay1
  refine (kernel_relu_apply _ (ix2 p q)).trans ?_
  exact congrArg reluAt (kernel_comb_apply h agg dc br _ _ _ _ _ p q)

/-- Grid point `t` owns the rows `5000 t … 5000 t + 4999`: row `p` of its block is this row of the array. -/
def row (t : Fin cfg1.N) (p : Fin 5000) : Fin 100000 :=
  ⟨t.val * 5000 + p.val, by have ht : t.val < 20 := t.isLt; have hp := p.isLt; omega⟩

/-- The printed index maps, decided over the grid: the row-blocked windows sit at block `(t, 0)`, the bias row at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem emb_h (t : Fin cfg1.N) (p : Fin 5000) (q : Fin 64) : ((cfg1.win 0).blk t).view.emb (ix2 p q) = ix2 (row t p) q := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

theorem emb_agg (t : Fin cfg1.N) (p : Fin 5000) (q : Fin 64) : ((cfg1.win 1).blk t).view.emb (ix2 p q) = ix2 (row t p) q := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 64 + 1 * q.val = q.val; omega

theorem emb_dc (t : Fin cfg1.N) (p : Fin 5000) (u : Fin 1) : ((cfg1.win 2).blk t).view.emb (ix2 p u) = ix2 (row t p) (0 : Fin 1) := by
  obtain ⟨-, -, -, -, e0, e1, -⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * u.val = 0; omega

theorem emb_br (t : Fin cfg1.N) (u : Fin 1) (q : Fin 64) : ((cfg1.win 3).blk t).view.emb (ix2 u q) = ix2 (0 : Fin 1) q := by
  obtain ⟨-, -, -, -, -, -, e0, e1, -⟩ := idx_facts t
  funext a; apply Fin.ext
  match a with
  | ⟨0, _⟩ => show win1_3.index t (0 : Fin 2) * 1 + 1 * u.val = 0; omega
  | ⟨1, _⟩ => show win1_3.index t (1 : Fin 2) * 64 + 1 * q.val = q.val; omega

theorem emb_out (t : Fin cfg1.N) (p : Fin 5000) (q : Fin 64) : ((cfg1.win 4).blk t).view.emb (ix2 p q) = ix2 (row t p) q := by
  obtain ⟨-, -, -, -, -, -, -, -, e0, e1⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- Row `p` of block `t` of each row-blocked array is row `5000 t + p` of the array, and the bias row is read whole: the
    block's entry is the array's. -/
theorem block_eq (H A : S100000x64.Idx → EReal) (D : S100000x1.Idx → EReal) (B : S1x64.Idx → EReal) (t : Fin cfg1.N) (p : Fin 5000) (q : Fin 64) :
    reluAt (combAt (R := 5000) (C := 64) (fun y => H (((cfg1.win 0).blk t).view.emb y)) (fun y => A (((cfg1.win 1).blk t).view.emb y)) (fun r => D (((cfg1.win 2).blk t).view.emb (ix2 r (0 : Fin 1)))) (fun k => B (((cfg1.win 3).blk t).view.emb (ix2 (0 : Fin 1) k))) p q)
      = combRelu H A D B (((cfg1.win 4).blk t).view.emb (ix2 p q)) := by
  rw [emb_out]
  show reluAt (A (((cfg1.win 1).blk t).view.emb (ix2 p q)) + H (((cfg1.win 0).blk t).view.emb (ix2 p q)) * D (((cfg1.win 2).blk t).view.emb (ix2 p (0 : Fin 1))) + B (((cfg1.win 3).blk t).view.emb (ix2 (0 : Fin 1) q)))
    = reluAt (A (ix2 (row t p) q) + H (ix2 (row t p) q) * D (ix2 (row t p) (0 : Fin 1)) + B (ix2 (0 : Fin 1) q))
  rw [emb_h, emb_agg, emb_dc, emb_br]

/-- What grid point `t` writes back is block `t` of `combRelu` of the arrays as the region finds them. -/
theorem flushed_eq (c : Dev nD) (t : Fin cfg1.N) :
    (dat1 V c).flushed 4 t = ((cfg1.win 4).blk t).view.read (Elt Ideal) (combRelu (V c main_v30) (V c main_v43) (V c main_v44) (V c main_v45)) := by
  show (cfg1.win 4).cut (grid1.coords t) ((dat1 V c).after 4 t) = _
  rw [after1_4]
  unfold out1_4
  rw [View.canon_unit_zero zero2]
  simp only [View.ld_unit_zero (S := S5000x64) zero2, View.ld_unit_zero (S := S5000x1) zero2, View.ld_unit_zero (S := S1x64) zero2]
  funext j
  obtain ⟨p, q, rfl⟩ : ∃ (p : Fin 5000) (q : Fin 64), j = ix2 p q := ⟨j 0, j 1, eq_ix2 j⟩
  refine (pay_apply (iblk1 V c 0 t) (iblk1 V c 1 t) (iblk1 V c 2 t) (iblk1 V c 3 t) p q).trans ?_
  exact block_eq (V c main_v30) (V c main_v43) (V c main_v44) (V c main_v45) t p q

/-- An index of the array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v46).slice (win1_4.rect t)).set ↔ _
  rw [View.set_slice_whole, Rect.mem_set_unit]
  exact Iff.rfl

/-- Row `r` lies in the block of point `r / 5000`: the twenty blocks tile the array. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 5000 < 20 := by omega
  obtain ⟨-, -, -, -, -, -, -, -, e0, e1⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val ∧ (i 1).val < win1_4.index ⟨(i 0).val / 5000, ht⟩ (1 : Fin 2) * 64 + 64
    rw [e1]; omega

/-- The result array after the region: `combRelu` of the four arrays the region was entered with. -/
theorem arr_eq (c : Dev nD) :
    (dat1 V c).arrAt 4 cfg1.N = combRelu (V c main_v30) (V c main_v43) (V c main_v44) (V c main_v45) :=
  (dat1 V c).arrAt_eq_of_cover 4 _ (fun t _ => flushed_eq V c t) cover

end Cert.KernelIdeal.Region1

end
-- ==== Proof.Region2.lean ====
/-
  The feature transform, block by block: grid point `t` reads rows `5000 t …` of the left operand and the whole right
  operand, and writes the same rows of the product.  Entry `(r, q)` of a product depends on row `r` of the left operand
  only, so the blocks are restrictions of one whole-array function (`mm`), and the twenty blocks tile the array.
-/
import proofs.«133283_j49289044689250_1_alg».proof.Proof.Gen.KernelIdeal.Frame
import proofs.«133283_j49289044689250_1_alg».proof.Proof.LibGcnSelfLoop
import Idealize.ShloMosaic.Lib.Pipeline.Value
import Idealize.ShloMosaic.Lib.ValueIdx

set_option maxRecDepth 16384

noncomputable section

namespace Cert.KernelIdeal.Region2

open Cert.KernelIdeal Cert.KernelIdeal.Gen Cert.GcnSelfLoop
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zero2 : (![0, 0] : Fin 2 → Nat) = fun _ => 0 := funext fun a => by fin_cases a <;> rfl

/-- The body's arithmetic at an entry of the block: the block's row times the right operand's column. -/
theorem pay_apply (x : FVec Ideal S5000x64 .f32) (w : FVec Ideal S64x40 .f32) (p : Fin 5000) (q : Fin 40) :
    k2_pay1 (F := Ideal) x w (ix2 p q) = mmAt x w p q := by
  unfold k2_pay1
  refine (kernel_mm_apply dot_S5000x64_S64x40_S5000x40_1_0_0_1_n_n rfl (shapeCast S5000x64 x shapeCasts_S5000x64_S5000x64) w bitsLt_bf16_f32 p q).trans ?_
  rw [shapeCast_self]

/-- Grid point `t` owns the rows `5000 t … 5000 t + 4999`: row `p` of its block is this row of the array. -/
def row (t : Fin cfg2.N) (p : Fin 5000) : Fin 100000 :=
  ⟨t.val * 5000 + p.val, by have ht : t.val < 20 := t.isLt; have hp := p.isLt; omega⟩

/-- The printed index maps, decided over the grid: the row-blocked windows sit at block `(t, 0)`, the right operand at `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem emb_x (t : Fin cfg2.N) (p : Fin 5000) (k : Fin 64) : ((cfg2.win 0).blk t).view.emb (ix2 p k) = ix2 (row t p) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem emb_w (t : Fin cfg2.N) (k : Fin 64) (q : Fin 40) : ((cfg2.win 1).blk t).view.emb (ix2 k q) = ix2 k q := by
  obtain ⟨-, -, e0, e1, -⟩ := idx_facts t
  funext a; apply Fin.ext
  match a with
  | ⟨0, _⟩ => show win2_1.index t (0 : Fin 2) * 64 + 1 * k.val = k.val; omega
  | ⟨1, _⟩ => show win2_1.index t (1 : Fin 2) * 40 + 1 * q.val = q.val; omega

theorem emb_out (t : Fin cfg2.N) (p : Fin 5000) (q : Fin 40) : ((cfg2.win 2).blk t).view.emb (ix2 p q) = ix2 (row t p) q := by
  obtain ⟨-, -, -, -, e0, e1⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 40 + 1 * q.val = q.val; omega

/-- Row `p` of block `t` of the left operand is row `5000 t + p` of the array, and the right operand is read whole: the
    block's entry is the array's. -/
theorem block_eq (X : S100000x64.Idx → EReal) (W : S64x40.Idx → EReal) (t : Fin cfg2.N) (p : Fin 5000) (q : Fin 40) :
    mmAt (R := 5000) (K := 64) (C := 40) (fun y => X (((cfg2.win 0).blk t).view.emb y)) (fun y => W (((cfg2.win 1).blk t).view.emb y)) p q
      = mm X W (((cfg2.win 2).blk t).view.emb (ix2 p q)) := by
  rw [emb_out]
  show (∑ k : Fin 64, X (((cfg2.win 0).blk t).view.emb (ix2 p k)) * W (((cfg2.win 1).blk t).view.emb (ix2 k q)))
    = ∑ k : Fin 64, X (ix2 (row t p) k) * W (ix2 k q)
  refine Finset.sum_congr rfl fun k _ => ?_
  rw [emb_x, emb_w]

/-- What grid point `t` writes back is block `t` of the product of the arrays as the region finds them. -/
theorem flushed_eq (c : Dev nD) (t : Fin cfg2.N) :
    (dat2 V c).flushed 2 t = ((cfg2.win 2).blk t).view.read (Elt Ideal) (mm (V c main_v46) (V c main_arg5)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64x40) zero2]
  funext j
  obtain ⟨p, q, rfl⟩ : ∃ (p : Fin 5000) (q : Fin 40), j = ix2 p q := ⟨j 0, j 1, eq_ix2 j⟩
  refine (pay_apply (iblk2 V c 0 t) (iblk2 V c 1 t) p q).trans ?_
  exact block_eq (V c main_v46) (V c main_arg5) t p q

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v47).slice (win2_2.rect t)).set ↔ _
  rw [View.set_slice_whole, Rect.mem_set_unit]
  exact Iff.rfl

/-- Row `r` lies in the block of point `r / 5000`: the twenty blocks tile the array. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have ht : (i 0).val / 5000 < 20 := by omega
  obtain ⟨-, -, -, -, e0, e1⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ (1 : Fin 2) * 40 ≤ (i 1).val ∧ (i 1).val < win2_2.index ⟨(i 0).val / 5000, ht⟩ (1 : Fin 2) * 40 + 40
    rw [e1]; omega

/-- The product array after the region: `mm` of the two arrays the region was entered with. -/
theorem arr_eq (c : Dev nD) : (dat2 V c).arrAt 2 cfg2.N = mm (V c main_v46) (V c main_arg5) :=
  (dat2 V c).arrAt_eq_of_cover 2 _ (fun t _ => flushed_eq V c t) cover

end Cert.KernelIdeal.Region2

end
-- ==== Proof.Region3.lean ====
/-
  The combine stage followed by the log-softmax of each row, block by block: grid point `t` reads rows `5000 t …` of the
  transformed features, of the aggregated neighbours and of the self-loop column, and the whole bias row, and writes the
  same rows of the result.  A row's log-softmax depends on that row only and a block holds whole rows, so the blocks are
  restrictions of one whole-array function (`combLsm`), and the twenty blocks tile the array.
-/
import proofs.«133283_j49289044689250_1_alg».proof.Proof.Gen.KernelIdeal.Frame
import proofs.«133283_j49289044689250_1_alg».proof.Proof.LibGcnSelfLoop
import Idealize.ShloMosaic.Lib.Pipeline.Value
import Idealize.ShloMosaic.Lib.ValueIdx

set_option maxRecDepth 16384

noncomputable section

namespace Cert.KernelIdeal.Region3

open Cert.KernelIdeal Cert.KernelIdeal.Gen Cert.GcnSelfLoop
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's arithmetic at an entry of the block, from the four loaded blocks. -/
theorem pay_apply (h agg : FVec Ideal S5000x40 .f32) (dc : FVec Ideal S5000x1 .f32) (br : FVec Ideal S1x40 .f32) (p : Fin 5000) (q : Fin 40) :
    k3_pay1 (F := Ideal) h agg dc br (ix2 p q) = lsmRow (fun k => combAt h agg (fun r => dc (ix2 r (0 : Fin 1))) (fun k => br (ix2 (0 : Fin 1) k)) p k) q := by
  unfold k3_pay1
  refine (kernel_lsm_apply _ reduces_S5000x40_S5000 (.inl rfl) rfl rfl shapeCasts_S5000_S5000x1 broadcasts_S5000x1_S5000x40 p q).trans ?_
  exact congrArg (fun f : Fin 40 → EReal => lsmRow f q) (funext fun k => kernel_comb_apply h agg dc br _ _ _ _ _ p k)

/-- Grid point `t` owns the rows `5000 t … 5000 t + 4999`: row `p` of its block is this row of the array. -/
def row (t : Fin cfg3.N) (p : Fin 5000) : Fin 100000 :=
  ⟨t.val * 5000 + p.val, by have ht : t.val < 20 := t.isLt; have hp := p.isLt; omega⟩

/-- The printed index maps, decided over the grid: the row-blocked windows sit at block `(t, 0)`, the bias row at `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem emb_h (t : Fin cfg3.N) (p : Fin 5000) (q : Fin 40) : ((cfg3.win 0).blk t).view.emb (ix2 p q) = ix2 (row t p) q := by
  obtain ⟨e0, e1, -⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 40 + 1 * q.val = q.val; omega

theorem emb_agg (t : Fin cfg3.N) (p : Fin 5000) (q : Fin 40) : ((cfg3.win 1).blk t).view.emb (ix2 p q) = ix2 (row t p) q := by
  obtain ⟨-, -, e0, e1, -⟩ := idx_facts t
  funext a; apply Fin.ext
  match a with
  | ⟨0, _⟩ => show win3_1.index t (0 : Fin 2) * 5000 + 1 * p.val = t.val * 5000 + p.val; omega
  | ⟨1, _⟩ => show win3_1.index t (1 : Fin 2) * 40 + 1 * q.val = q.val; omega

theorem emb_dc (t : Fin cfg3.N) (p : Fin 5000) (u : Fin 1) : ((cfg3.win 2).blk t).view.emb (ix2 p u) = ix2 (row t p) (0 : Fin 1) := by
  obtain ⟨-, -, -, -, e0, e1, -⟩ := idx_facts t
  funext a; apply Fin.ext
  match a with
  | ⟨0, _⟩ => show win3_2.index t (0 : Fin 2) * 5000 + 1 * p.val = t.val * 5000 + p.val; omega
  | ⟨1, _⟩ => show win3_2.index t (1 : Fin 2) * 1 + 1 * u.val = 0; omega

theorem emb_br (t : Fin cfg3.N) (u : Fin 1) (q : Fin 40) : ((cfg3.win 3).blk t).view.emb (ix2 u q) = ix2 (0 : Fin 1) q := by
  obtain ⟨-, -, -, -, -, -, e0, e1, -⟩ := idx_facts t
  funext a; apply Fin.ext
  match a with
  | ⟨0, _⟩ => show win3_3.index t (0 : Fin 2) * 1 + 1 * u.val = 0; omega
  | ⟨1, _⟩ => show win3_3.index t (1 : Fin 2) * 40 + 1 * q.val = q.val; omega

theorem emb_out (t : Fin cfg3.N) (p : Fin 5000) (q : Fin 40) : ((cfg3.win 4).blk t).view.emb (ix2 p q) = ix2 (row t p) q := by
  obtain ⟨-, -, -, -, -, -, -, -, e0, e1⟩ := idx_facts t
  funext a; apply Fin.ext
  match a with
  | ⟨0, _⟩ => show win3_4.index t (0 : Fin 2) * 5000 + 1 * p.val = t.val * 5000 + p.val; omega
  | ⟨1, _⟩ => show win3_4.index t (1 : Fin 2) * 40 + 1 * q.val = q.val; omega

/-- Row `p` of block `t` of each row-blocked array is row `5000 t + p` of the array, and the bias row is read whole: the
    block's entry is the array's. -/
theorem block_eq (H A : S100000x40.Idx → EReal) (D : S100000x1.Idx → EReal) (B : S1x40.Idx → EReal) (t : Fin cfg3.N) (p : Fin 5000) (q : Fin 40) :
    lsmRow (fun k => combAt (R := 5000) (C := 40) (fun y => H (((cfg3.win 0).blk t).view.emb y)) (fun y => A (((cfg3.win 1).blk t).view.emb y)) (fun r => D (((cfg3.win 2).blk t).view.emb (ix2 r (0 : Fin 1)))) (fun k => B (((cfg3.win 3).blk t).view.emb (ix2 (0 : Fin 1) k))) p k) q
      = combLsm H A D B (((cfg3.win 4).blk t).view.emb (ix2 p q)) := by
  rw [emb_out]
  show lsmRow (fun k => A (((cfg3.win 1).blk t).view.emb (ix2 p k)) + H (((cfg3.win 0).blk t).view.emb (ix2 p k)) * D (((cfg3.win 2).blk t).view.emb (ix2 p (0 : Fin 1))) + B (((cfg3.win 3).blk t).view.emb (ix2 (0 : Fin 1) k))) q
    = lsmRow (fun k => A (ix2 (row t p) k) + H (ix2 (row t p) k) * D (ix2 (row t p) (0 : Fin 1)) + B (ix2 (0 : Fin 1) k)) q
  refine congrArg (fun f : Fin 40 → EReal => lsmRow f q) (funext fun k => ?_)
  rw [emb_h, emb_agg, emb_dc, emb_br]

/-- What grid point `t` writes back is block `t` of `combLsm` of the arrays as the region finds them. -/
theorem flushed_eq (c : Dev nD) (t : Fin cfg3.N) :
    (dat3 V c).flushed 4 t = ((cfg3.win 4).blk t).view.read (Elt Ideal) (combLsm (V c main_v47) (V c main_v60) (V c main_v61) (V c main_v62)) := by
  show (cfg3.win 4).cut (grid3.coords t) ((dat3 V c).after 4 t) = _
  rw [after3_4]
  unfold out3_4
  rw [View.canon_unit_zero zero2]
  simp only [View.ld_unit_zero (S := S5000x40) zero2, View.ld_unit_zero (S := S5000x1) zero2, View.ld_unit_zero (S := S1x40) zero2]
  funext j
  obtain ⟨p, q, rfl⟩ : ∃ (p : Fin 5000) (q : Fin 40), j = ix2 p q := ⟨j 0, j 1, eq_ix2 j⟩
  refine (pay_apply (iblk3 V c 0 t) (iblk3 V c 1 t) (iblk3 V c 2 t) (iblk3 V c 3 t) p q).trans ?_
  exact block_eq (V c main_v47) (V c main_v60) (V c main_v61) (V c main_v62) t p q

/-- An index of the array is in point `t`'s block iff each coordinate is in the block's range on its axis. -/
theorem mem_blk (t : Fin cfg3.N) (i : S100000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v63).slice (win3_4.rect t)).set ↔ _
  rw [View.set_slice_whole, Rect.mem_set_unit]
  exact Iff.rfl

/-- Row `r` lies in the block of point `r / 5000`: the twenty blocks tile the array. -/
theorem cover (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  have ht : (i 0).val / 5000 < 20 := by omega
  obtain ⟨-, -, -, -, -, -, -, -, e0, e1⟩ := idx_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 40 ≤ (i 1).val ∧ (i 1).val < win3_4.index ⟨(i 0).val / 5000, ht⟩ (1 : Fin 2) * 40 + 40
    rw [e1]; omega

/-- The result array after the region: `combLsm` of the four arrays the region was entered with. -/
theorem arr_eq (c : Dev nD) :
    (dat3 V c).arrAt 4 cfg3.N = combLsm (V c main_v47) (V c main_v60) (V c main_v61) (V c main_v62) :=
  (dat3 V c).arrAt_eq_of_cover 4 _ (fun t _ => flushed_eq V c t) cover

end Cert.KernelIdeal.Region3

end
-- ==== Proof.HostChain.lean ====
/-
  The edge quantities of the graph convolution as the host computes them from the edge list `ei : [2, 1600000]` (its rows the
  source and target lists `src`, `dst`) and the edge weights `ew : [1600000]`, each as one term, at any float instance `F` (so that nothing here can ever be evaluated):
  * `edgeSrc`, `edgeDst`: rows 0 and 1 of the edge list;
  * `degree`: the weighted in-degree, the weights summed into their target node, plus 1 for the self-loop;
  * `dinv`: `degree ^ (-1/2)` where the degree is positive, 0 elsewhere;
  * `selfLoop = dinv · dinv`: the coefficient of a node's own row;
  * `edgeCoef e = dinv (src e) · ew e · dinv (dst e)`: the coefficient of edge `e` (a negative index wrapped once before it is looked up);
  * `agg64`, `agg40`: the neighbour aggregation of a feature array over the edges.
  Both programs compute exactly these terms.
-/
import proofs.«133283_j49289044689250_1_alg».proof.Proof.Gen.KernelIdeal
import Idealize.ShloMosaic.PureOps.Ideal

noncomputable section

namespace Cert.KernelIdeal.Edges

open Cert.KernelIdeal Cert.KernelIdeal.Gen Idealize.ShloMosaic

variable {F : FTy → Type} [FloatOps F]

abbrev EdgeList := IVec S2x1600000 32
abbrev EdgeIdx := IVec S1600000 32

def edgeSrc (ei : EdgeList) : EdgeIdx :=
  shapeCast _ (extractStridedSlice S1x1600000 ![0, 0] ei slices_S2x1600000_S1x1600000_0_0) shapeCasts_S1x1600000_S1600000

def edgeDst (ei : EdgeList) : EdgeIdx :=
  shapeCast _ (extractStridedSlice S1x1600000 ![1, 0] ei slices_S2x1600000_S1x1600000_1_0) shapeCasts_S1x1600000_S1600000

def degree (dst : EdgeIdx) (ew : FVec F S1600000 .f32) : FVec F S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst) ew)
    (broadcastInDim S100000 ![] bcast_S_S100000 (constant S_ .f32 0x3F800000#32))

def dinv (dst : EdgeIdx) (ew : FVec F S1600000 .f32) : FVec F S100000 .f32 :=
  select (cmpf .ogt (degree dst ew) (broadcastInDim S100000 ![] bcast_S_S100000 (constant S_ .f32 0x00000000#32)))
    (Host.rsqrt (degree dst ew))
    (broadcastInDim S100000 ![] bcast_S_S100000 (constant S_ .f32 0x00000000#32))

def selfLoop (dst : EdgeIdx) (ew : FVec F S1600000 .f32) : FVec F S100000 .f32 := mulf (dinv dst ew) (dinv dst ew)

/-- A node index as the host's lookups take it: a negative one has the node count added once. -/
def wrap (i : EdgeIdx) : EdgeIdx :=
  select (cmpi .slt i (broadcastInDim S1600000 ![] bcast_S_S1600000 (constantI S_ 32 0#32)))
    (addi i (broadcastInDim S1600000 ![] bcast_S_S1600000 (constantI S_ 32 100000#32))) i

def edgeCoef (src dst : EdgeIdx) (ew : FVec F S1600000 .f32) : FVec F S1600000 .f32 :=
  mulf (mulf (Host.gather gather_S100000_S1600000x1_S1600000_n_0_n_n_0_1_1 (dinv dst ew)
        (broadcastInDim S1600000x1 ![0] bcast_S1600000_S1600000x1_0 (wrap src))) ew)
    (Host.gather gather_S100000_S1600000x1_S1600000_n_0_n_n_0_1_1 (dinv dst ew)
      (broadcastInDim S1600000x1 ![0] bcast_S1600000_S1600000x1_0 (wrap dst)))

/-- The neighbour aggregation of `[100000, 64]` rows as the host spells it: row `src e` of `h` (a negative index wrapped once) scaled
    by the edge coefficient `nrm e`, added into row `dst e` of a zero array, over all edges `e`. -/
def agg64 (h : FVec F S100000x64 .f32) (src dst : IVec S1600000 32) (nrm : FVec F S1600000 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0 (wrap src)))
      (broadcastInDim S1600000x64 ![0, 1] bcast_S1600000x1_S1600000x64_0_1 (broadcastInDim S1600000x1 ![0] bcast_S1600000_S1600000x1_0 nrm)))

/-- The neighbour aggregation of `[100000, 40]` rows as the host spells it: row `src e` of `h` (a negative index wrapped once) scaled
    by the edge coefficient `nrm e`, added into row `dst e` of a zero array, over all edges `e`. -/
def agg40 (h : FVec F S100000x40 .f32) (src dst : IVec S1600000 32) (nrm : FVec F S1600000 .f32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf (Host.gather gather_S100000x40_S1600000x1_S1600000x40_1_0_n_n_0_1_140 h
        (broadcastInDim S1600000x1 ![0] bcast_S1600000_S1600000x1_0 (wrap src)))
      (broadcastInDim S1600000x40 ![0, 1] bcast_S1600000x1_S1600000x40_0_1 (broadcastInDim S1600000x1 ![0] bcast_S1600000_S1600000x1_0 nrm)))

end Cert.KernelIdeal.Edges

end
-- ==== Proof.KernelValue.lean ====
/-
  The idealized kernel's result as one term of its arguments.  The buffer contents at each boundary of the program are a
  fold from the launch memory; read back from the last boundary:
  * the result is the log-softmax combine stage (`combLsm`) of the second feature transform `h₂`, its neighbour
    aggregation, the self-loop column and the second bias row;
  * `h₂ = o₁ · W₂`, where `o₁` is the combine stage floored at zero (`combRelu`) of `h₁ = x · W₁`, its neighbour
    aggregation, the same self-loop column and the first bias row;
  * the edge lists, the edge coefficients and the self-loop coefficients are whatever the host operations before the
    first region left (`Gen.W3`): they are carried unchanged past every region and every later host stretch, because none
    writes them.
-/
import proofs.«133283_j49289044689250_1_alg».proof.Proof.Gen.KernelIdeal.Frame
import proofs.«133283_j49289044689250_1_alg».proof.Proof.Region0
import proofs.«133283_j49289044689250_1_alg».proof.Proof.Region1
import proofs.«133283_j49289044689250_1_alg».proof.Proof.Region2
import proofs.«133283_j49289044689250_1_alg».proof.Proof.Region3
import proofs.«133283_j49289044689250_1_alg».proof.Proof.HostChain
import Idealize.ShloMosaic.Lib.StableHlo.Run

set_option maxRecDepth 16384

noncomputable section

namespace Cert.KernelIdeal.Folded

open Cert.KernelIdeal Cert.KernelIdeal.Gen Cert.KernelIdeal.Edges Cert.GcnSelfLoop
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Buffers carried unchanged -/

/-- A buffer that is no array of regions 0, 1, 2 and that the host stretch between regions 0 and 1 does not write holds
    at region 2's exit what it held at region 0's entry. -/
theorem carry7 (b : Ref sig .tc) (h0 : ∀ w, Pipeline.arrRef spec0 w ≠ b) (h1 : ∀ w, Pipeline.arrRef spec1 w ≠ b)
    (h2 : ∀ w, Pipeline.arrRef spec2 w ≠ b)
    (hh : StableHlo.after hostOps1 (W4 m ρ c) (Proc.devRef .tc b) = W4 m ρ c (Proc.devRef .tc b)) :
    W7 m ρ c (Proc.devRef .tc b) = W3 m ρ c (Proc.devRef .tc b) :=
  (W7_of_ne m ρ c b h2).trans ((W6_of_ne m ρ c b h1).trans (hh.trans (W4_of_ne m ρ c b h0)))

theorem W7_v1 : W7 m ρ c (Proc.devRef .tc main_v1) = W3 m ρ c (Proc.devRef .tc main_v1) :=
  carry7 m ρ c main_v1 (by decide) (by decide) (by decide) (by dsimp only [hostOps1]; after_results : StableHlo.after hostOps1 (W4 m ρ c) (Proc.devRef .tc main_v1) = W4 m ρ c (Proc.devRef .tc main_v1))
theorem W7_v3 : W7 m ρ c (Proc.devRef .tc main_v3) = W3 m ρ c (Proc.devRef .tc main_v3) :=
  carry7 m ρ c main_v3 (by decide) (by decide) (by decide) (by dsimp only [hostOps1]; after_results : StableHlo.after hostOps1 (W4 m ρ c) (Proc.devRef .tc main_v3) = W4 m ρ c (Proc.devRef .tc main_v3))
theorem W7_v13 : W7 m ρ c (Proc.devRef .tc main_v13) = W3 m ρ c (Proc.devRef .tc main_v13) :=
  carry7 m ρ c main_v13 (by decide) (by decide) (by decide) (by dsimp only [hostOps1]; after_results : StableHlo.after hostOps1 (W4 m ρ c) (Proc.devRef .tc main_v13) = W4 m ρ c (Proc.devRef .tc main_v13))
theorem W7_v29 : W7 m ρ c (Proc.devRef .tc main_v29) = W3 m ρ c (Proc.devRef .tc main_v29) :=
  carry7 m ρ c main_v29 (by decide) (by decide) (by decide) (by dsimp only [hostOps1]; after_results : StableHlo.after hostOps1 (W4 m ρ c) (Proc.devRef .tc main_v29) = W4 m ρ c (Proc.devRef .tc main_v29))
theorem W7_arg6 : W7 m ρ c (Proc.devRef .tc main_arg6) = W3 m ρ c (Proc.devRef .tc main_arg6) :=
  carry7 m ρ c main_arg6 (by decide) (by decide) (by decide) (by dsimp only [hostOps1]; after_results : StableHlo.after hostOps1 (W4 m ρ c) (Proc.devRef .tc main_arg6) = W4 m ρ c (Proc.devRef .tc main_arg6))

/-- The second weight matrix, as region 2 finds it, is what region 0's entry held. -/
theorem W6_arg5 : W6 m ρ c (Proc.devRef .tc main_arg5) = W3 m ρ c (Proc.devRef .tc main_arg5) :=
  (W6_of_ne m ρ c main_arg5 (by decide)).trans ((by dsimp only [hostOps1]; after_results : StableHlo.after hostOps1 (W4 m ρ c) (Proc.devRef .tc main_arg5) = W4 m ρ c (Proc.devRef .tc main_arg5)).trans (W4_of_ne m ρ c main_arg5 (by decide)))

/-! ## The regions' results and the host stretches between them -/

/-- Region 0 leaves `x · W₁`. -/
theorem W4_v30 : W4 m ρ c (Proc.devRef .tc main_v30)
    = mm (W3 m ρ c (Proc.devRef .tc main_arg0)) (W3 m ρ c (Proc.devRef .tc main_arg3)) :=
  (W4_arr m ρ c 2).trans (Region0.arr_eq (V3 m ρ) c)

/-- The host stretch before region 1: the transform is kept, its neighbour aggregation and the column and row forms of
    the self-loop coefficients and of the first bias are made. -/
theorem W5_v30 : W5 m ρ c (Proc.devRef .tc main_v30) = W4 m ρ c (Proc.devRef .tc main_v30) := by
  show StableHlo.after hostOps1 (W4 m ρ c) (Proc.devRef .tc main_v30) = _
  dsimp only [hostOps1]; after_results
theorem W5_v43 : W5 m ρ c (Proc.devRef .tc main_v43)
    = agg64 (F := Ideal) (W4 m ρ c (Proc.devRef .tc main_v30)) (W4 m ρ c (Proc.devRef .tc main_v1)) (W4 m ρ c (Proc.devRef .tc main_v3)) (W4 m ρ c (Proc.devRef .tc main_v29)) := by
  show StableHlo.after hostOps1 (W4 m ρ c) (Proc.devRef .tc main_v43) = _
  dsimp only [hostOps1]; after_results; rfl
theorem W5_v44 : W5 m ρ c (Proc.devRef .tc main_v44)
    = shapeCast S100000x1 (W4 m ρ c (Proc.devRef .tc main_v13)) shapeCasts_S100000_S100000x1 := by
  show StableHlo.after hostOps1 (W4 m ρ c) (Proc.devRef .tc main_v44) = _
  dsimp only [hostOps1]; after_results; rfl
theorem W5_v45 : W5 m ρ c (Proc.devRef .tc main_v45)
    = shapeCast S1x64 (W4 m ρ c (Proc.devRef .tc main_arg4)) shapeCasts_S64_S1x64 := by
  show StableHlo.after hostOps1 (W4 m ρ c) (Proc.devRef .tc main_v45) = _
  dsimp only [hostOps1]; after_results; rfl

/-- Region 1 leaves the combine stage floored at zero. -/
theorem W6_v46 : W6 m ρ c (Proc.devRef .tc main_v46)
    = combRelu (W5 m ρ c (Proc.devRef .tc main_v30)) (W5 m ρ c (Proc.devRef .tc main_v43)) (W5 m ρ c (Proc.devRef .tc main_v44)) (W5 m ρ c (Proc.devRef .tc main_v45)) :=
  (W6_arr m ρ c 4).trans (Region1.arr_eq (V5 m ρ) c)

/-- Region 2 leaves `o₁ · W₂`. -/
theorem W7_v47 : W7 m ρ c (Proc.devRef .tc main_v47)
    = mm (W6 m ρ c (Proc.devRef .tc main_v46)) (W6 m ρ c (Proc.devRef .tc main_arg5)) :=
  (W7_arr m ρ c 2).trans (Region2.arr_eq (V6 m ρ) c)

/-- The host stretch before region 3, as before region 1. -/
theorem W8_v47 : W8 m ρ c (Proc.devRef .tc main_v47) = W7 m ρ c (Proc.devRef .tc main_v47) := by
  show StableHlo.after hostOps3 (W7 m ρ c) (Proc.devRef .tc main_v47) = _
  dsimp only [hostOps3]; after_results
theorem W8_v60 : W8 m ρ c (Proc.devRef .tc main_v60)
    = agg40 (F := Ideal) (W7 m ρ c (Proc.devRef .tc main_v47)) (W7 m ρ c (Proc.devRef .tc main_v1)) (W7 m ρ c (Proc.devRef .tc main_v3)) (W7 m ρ c (Proc.devRef .tc main_v29)) := by
  show StableHlo.after hostOps3 (W7 m ρ c) (Proc.devRef .tc main_v60) = _
  dsimp only [hostOps3]; after_results; rfl
theorem W8_v61 : W8 m ρ c (Proc.devRef .tc main_v61)
    = shapeCast S100000x1 (W7 m ρ c (Proc.devRef .tc main_v13)) shapeCasts_S100000_S100000x1 := by
  show StableHlo.after hostOps3 (W7 m ρ c) (Proc.devRef .tc main_v61) = _
  dsimp only [hostOps3]; after_results; rfl
theorem W8_v62 : W8 m ρ c (Proc.devRef .tc main_v62)
    = shapeCast S1x40 (W7 m ρ c (Proc.devRef .tc main_arg6)) shapeCasts_S40_S1x40 := by
  show StableHlo.after hostOps3 (W7 m ρ c) (Proc.devRef .tc main_v62) = _
  dsimp only [hostOps3]; after_results; rfl

/-- Region 3 leaves the combine stage followed by the log-softmax of each row. -/
theorem W9_v63 : W9 m ρ c (Proc.devRef .tc main_v63)
    = combLsm (W8 m ρ c (Proc.devRef .tc main_v47)) (W8 m ρ c (Proc.devRef .tc main_v60)) (W8 m ρ c (Proc.devRef .tc main_v61)) (W8 m ρ c (Proc.devRef .tc main_v62)) :=
  (W9_arr m ρ c 4).trans (Region3.arr_eq (V8 m ρ) c)

/-! ## The result as one term -/

/-- The two-layer graph convolution over given edge lists `src`, `dst`, edge coefficients `nrm` and self-loop coefficients `d`. -/
def gcn (x : (⟨S100000x128, .f32⟩ : BufTy).Contents (Elt Ideal)) (w1 : (⟨S128x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal))
    (src dst : (⟨S1600000, .i32⟩ : BufTy).Contents (Elt Ideal)) (nrm : (⟨S1600000, .f32⟩ : BufTy).Contents (Elt Ideal))
    (d : (⟨S100000, .f32⟩ : BufTy).Contents (Elt Ideal)) : (⟨S100000x40, .f32⟩ : BufTy).Contents (Elt Ideal) :=
  combLsm
    (mm (combRelu (mm x w1) (agg64 (F := Ideal) (mm x w1) src dst nrm) (shapeCast S100000x1 d shapeCasts_S100000_S100000x1) (shapeCast S1x64 b1 shapeCasts_S64_S1x64)) w2)
    (agg40 (F := Ideal) (mm (combRelu (mm x w1) (agg64 (F := Ideal) (mm x w1) src dst nrm) (shapeCast S100000x1 d shapeCasts_S100000_S100000x1) (shapeCast S1x64 b1 shapeCasts_S64_S1x64)) w2) src dst nrm)
    (shapeCast S100000x1 d shapeCasts_S100000_S100000x1) (shapeCast S1x40 b2 shapeCasts_S40_S1x40)

/-- The last boundary's contents at the result: the convolution of what region 0's entry held. -/
theorem W9_result : W9 m ρ c (Proc.devRef .tc main_v63)
    = gcn (W3 m ρ c (Proc.devRef .tc main_arg0)) (W3 m ρ c (Proc.devRef .tc main_arg3)) (W3 m ρ c (Proc.devRef .tc main_arg4))
        (W3 m ρ c (Proc.devRef .tc main_arg5)) (W3 m ρ c (Proc.devRef .tc main_arg6))
        (W3 m ρ c (Proc.devRef .tc main_v1)) (W3 m ρ c (Proc.devRef .tc main_v3)) (W3 m ρ c (Proc.devRef .tc main_v29))
        (W3 m ρ c (Proc.devRef .tc main_v13)) := by
  rw [W9_v63, W8_v47, W8_v60, W8_v61, W8_v62, W7_v47, W7_v1, W7_v3, W7_v13, W7_v29, W7_arg6, W6_arg5, W6_v46,
    W5_v30, W5_v43, W5_v44, W5_v45, W4_v30,
    W4_of_ne m ρ c main_v1 (by decide), W4_of_ne m ρ c main_v3 (by decide), W4_of_ne m ρ c main_v13 (by decide),
    W4_of_ne m ρ c main_v29 (by decide), W4_of_ne m ρ c main_arg4 (by decide)]
  rfl

end Cert.KernelIdeal.Folded

end
-- ==== Proof.KernelEntry.lean ====
/-
  What the kernel program's first region is entered with, at any float instance: the host operations before it leave the
  argument arrays as launched and compute, from the edge list and the edge weights, the source and target lists, the edge coefficients and the
  self-loop coefficients (`Edges`).
-/
import proofs.«133283_j49289044689250_1_alg».proof.Proof.Gen.KernelIdeal.Frame
import proofs.«133283_j49289044689250_1_alg».proof.Proof.HostChain
import Idealize.ShloMosaic.Lib.StableHlo.Run

set_option maxRecDepth 16384

noncomputable section

namespace Cert.KernelIdeal.Entry

open Cert.KernelIdeal Cert.KernelIdeal.Gen Cert.KernelIdeal.Edges
open Idealize.ShloMosaic Idealize.ShloMosaic.TcCoe Idealize.ShloMosaic.StableHlo Idealize.SL.Sem

variable {F : FTy → Type} [FloatOps F] (m : (ℓ : Loc nD τ sig) → Buf (Elt F) ℓ) (ρ : Dev nD → PrngReg) (c : Dev nD)

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0_2, hostOps0_1, hostOps0]; after_results
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0_2, hostOps0_1, hostOps0]; after_results
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0_2, hostOps0_1, hostOps0]; after_results
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  dsimp only [hostOps0_2, hostOps0_1, hostOps0]; after_results
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  dsimp only [hostOps0_2, hostOps0_1, hostOps0]; after_results
set_option maxHeartbeats 4000000 in
theorem W3_v1 : W3 m ρ c (Proc.devRef .tc main_v1) = edgeSrc (m ((c : Thread nD τ).loc main_arg1)) := by
  show StableHlo.after hostOps0_2 (StableHlo.after hostOps0_1 (StableHlo.after hostOps0 (W0 m ρ c))) (Proc.devRef .tc main_v1) = _
  dsimp only [hostOps0_2, hostOps0_1, hostOps0]
  after_results_simp
  rfl
set_option maxHeartbeats 4000000 in
theorem W3_v3 : W3 m ρ c (Proc.devRef .tc main_v3) = edgeDst (m ((c : Thread nD τ).loc main_arg1)) := by
  show StableHlo.after hostOps0_2 (StableHlo.after hostOps0_1 (StableHlo.after hostOps0 (W0 m ρ c))) (Proc.devRef .tc main_v3) = _
  dsimp only [hostOps0_2, hostOps0_1, hostOps0]
  after_results_simp
  rfl
set_option maxHeartbeats 4000000 in
theorem W3_v13 : W3 m ρ c (Proc.devRef .tc main_v13) = selfLoop (edgeDst (m ((c : Thread nD τ).loc main_arg1))) (m ((c : Thread nD τ).loc main_arg2)) := by
  show StableHlo.after hostOps0_2 (StableHlo.after hostOps0_1 (StableHlo.after hostOps0 (W0 m ρ c))) (Proc.devRef .tc main_v13) = _
  dsimp only [hostOps0_2, hostOps0_1, hostOps0]
  after_results_simp
  simp only [TRef.toBuf, TRef.ofBuf, cast_eq, id_eq]
  rfl
set_option maxHeartbeats 4000000 in
theorem W3_v29 : W3 m ρ c (Proc.devRef .tc main_v29) = edgeCoef (edgeSrc (m ((c : Thread nD τ).loc main_arg1))) (edgeDst (m ((c : Thread nD τ).loc main_arg1))) (m ((c : Thread nD τ).loc main_arg2)) := by
  show StableHlo.after hostOps0_2 (StableHlo.after hostOps0_1 (StableHlo.after hostOps0 (W0 m ρ c))) (Proc.devRef .tc main_v29) = _
  dsimp only [hostOps0_2, hostOps0_1, hostOps0]
  after_results_simp
  simp only [TRef.toBuf, TRef.ofBuf, cast_eq, id_eq]
  rfl

end Cert.KernelIdeal.Entry

end
-- ==== Proof.RefOps.lean ====
/-
  The reference's 142 host operations cut into three consecutive stretches — through the first layer's floor at zero
  (`ops1`), through the second combine stage (`ops2`), the log-softmax (`ops3`) — and the fold over the whole list as the three
  folds composed: `after` of an appended list is the fold over the second part of the fold over the first.
-/
import proofs.«133283_j49289044689250_1_alg».proof.Proof.RefRunP
import proofs.«133283_j49289044689250_1_alg».proof.Proof.LibGcnSelfLoop
import Idealize.ShloMosaic.Lib.StableHlo.Run

set_option maxRecDepth 16384

noncomputable section

namespace Cert.ReferenceIdeal.Fold

open Cert.ReferenceIdeal Cert.ReferenceIdeal.Gen Cert.ReferenceIdeal.ValueP Cert.GcnSelfLoop
open Idealize.ShloMosaic Idealize.ShloMosaic.TcCoe Idealize.SL.Sem Idealize.ShloMosaic.StableHlo Idealize.ShloMosaic.ValueIdx

section Lists
variable {F : FTy → Type} [FloatOps F]

/-- Operations 1 … 67: the edge quantities, the first feature transform, its aggregation, the combine stage and the floor at zero. -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x00000000#32),
    unary main_cst main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_arg2 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x3F800000#32),
    unary main_cst_0 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    nullary main_cst_1 (constant S_ .f32 0x00000000#32),
    unary main_cst_1 main_v10 (broadcastInDim S100000 ![] bcast_S_S100000 : (⟨S_, .f32⟩ : BufTy).Contents (Elt F) → (⟨S100000, .f32⟩ : BufTy).Contents (Elt F)),
    binary main_v9 main_v10 main_v11 (cmpf .ogt : (⟨S100000, .f32⟩ : BufTy).Contents (Elt F) → (⟨S100000, .f32⟩ : BufTy).Contents (Elt F) → (⟨S100000, .i1⟩ : BufTy).Contents (Elt F)),
    unary main_v9 main_v12 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v11) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v20 main_arg2 main_v21 (mulf : (⟨S1600000, .f32⟩ : BufTy).Contents (Elt F) → (⟨S1600000, .f32⟩ : BufTy).Contents (Elt F) → (⟨S1600000, .f32⟩ : BufTy).Contents (Elt F)),
    nullary main_c_4 (constantI S_ 32 0#32),
    unary main_c_4 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v4 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x64 ![0, 1] bcast_S1600000x1_S1600000x64_0_1 : (⟨S1600000x1, .f32⟩ : BufTy).Contents (Elt F) → (⟨S1600000x64, .f32⟩ : BufTy).Contents (Elt F)),
    binary main_v36 main_v38 main_v39 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v13 main_v13 main_v43 (mulf : (⟨S100000, .f32⟩ : BufTy).Contents (Elt F) → (⟨S100000, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    unary main_v44 main_v45 (broadcastInDim S100000x64 ![0, 1] bcast_S100000x1_S100000x64_0_1 : (⟨S100000x1, .f32⟩ : BufTy).Contents (Elt F) → (⟨S100000x64, .f32⟩ : BufTy).Contents (Elt F)),
    binary main_v4 main_v45 main_v46 (mulf : (⟨S100000x64, .f32⟩ : BufTy).Contents (Elt F) → (⟨S100000x64, .f32⟩ : BufTy).Contents (Elt F) → (⟨S100000x64, .f32⟩ : BufTy).Contents (Elt F)),
    binary main_v42 main_v46 main_v47 (addf : (⟨S100000x64, .f32⟩ : BufTy).Contents (Elt F) → (⟨S100000x64, .f32⟩ : BufTy).Contents (Elt F) → (⟨S100000x64, .f32⟩ : BufTy).Contents (Elt F)),
    unary main_arg4 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v50) (TRef.of (T := ⟨S100000x64, .f32⟩) main_call1_v0) (TRef.of (T := ⟨S100000x64, .f32⟩) main_v51) maximumf ]

/-- Operations 68 … 127: the second feature transform, the edge quantities once more, the aggregation and the second combine stage. -/
abbrev ops2 : List (HloOp τ sig (Elt F)) :=
  [ binary main_v51 main_arg5 main_v52 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    nullary main_cst_9 (constant S_ .f32 0x00000000#32),
    unary main_cst_9 main_v53 (broadcastInDim S100000 ![] bcast_S_S100000 : (⟨S_, .f32⟩ : BufTy).Contents (Elt F) → (⟨S100000, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_arg2 main_v55 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v56 (broadcastInDim S100000 ![] bcast_S_S100000 : (⟨S_, .f32⟩ : BufTy).Contents (Elt F) → (⟨S100000, .f32⟩ : BufTy).Contents (Elt F)),
    binary main_v55 main_v56 main_v57 (addf : (⟨S100000, .f32⟩ : BufTy).Contents (Elt F) → (⟨S100000, .f32⟩ : BufTy).Contents (Elt F) → (⟨S100000, .f32⟩ : BufTy).Contents (Elt F)),
    nullary main_cst_11 (constant S_ .f32 0x00000000#32),
    unary main_cst_11 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    unary main_v57 main_v60 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v60) (TRef.of (T := ⟨S100000, .f32⟩) main_call2_v1) (TRef.of (T := ⟨S100000, .f32⟩) main_v61) select,
    nullary main_c_13 (constantI S_ 32 0#32),
    unary main_c_13 main_v62 (broadcastInDim S1600000 ![] bcast_S_S1600000 : (⟨S_, .i32⟩ : BufTy).Contents (Elt F) → (⟨S1600000, .i32⟩ : BufTy).Contents (Elt F)),
    binary main_v1 main_v62 main_v63 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v64 (broadcastInDim S1600000 ![] bcast_S_S1600000 : (⟨S_, .i32⟩ : BufTy).Contents (Elt F) → (⟨S1600000, .i32⟩ : BufTy).Contents (Elt F)),
    binary main_v1 main_v64 main_v65 (addi : (⟨S1600000, .i32⟩ : BufTy).Contents (Elt F) → (⟨S1600000, .i32⟩ : BufTy).Contents (Elt F) → (⟨S1600000, .i32⟩ : BufTy).Contents (Elt F)),
    ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v66 main_v67 (broadcastInDim S1600000x1 ![0] bcast_S1600000_S1600000x1_0 : (⟨S1600000, .i32⟩ : BufTy).Contents (Elt F) → (⟨S1600000x1, .i32⟩ : BufTy).Contents (Elt F)),
    binary main_v61 main_v67 main_v68 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v68 main_arg2 main_v69 (mulf : (⟨S1600000, .f32⟩ : BufTy).Contents (Elt F) → (⟨S1600000, .f32⟩ : BufTy).Contents (Elt F) → (⟨S1600000, .f32⟩ : BufTy).Contents (Elt F)),
    nullary main_c_15 (constantI S_ 32 0#32),
    unary main_c_15 main_v70 (broadcastInDim S1600000 ![] bcast_S_S1600000 : (⟨S_, .i32⟩ : BufTy).Contents (Elt F) → (⟨S1600000, .i32⟩ : BufTy).Contents (Elt F)),
    binary main_v3 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v72 (broadcastInDim S1600000 ![] bcast_S_S1600000 : (⟨S_, .i32⟩ : BufTy).Contents (Elt F) → (⟨S1600000, .i32⟩ : BufTy).Contents (Elt F)),
    binary main_v3 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_v3 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    binary main_v61 main_v75 main_v76 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v69 main_v76 main_v77 (mulf : (⟨S1600000, .f32⟩ : BufTy).Contents (Elt F) → (⟨S1600000, .f32⟩ : BufTy).Contents (Elt F) → (⟨S1600000, .f32⟩ : BufTy).Contents (Elt F)),
    nullary main_c_17 (constantI S_ 32 0#32),
    unary main_c_17 main_v78 (broadcastInDim S1600000 ![] bcast_S_S1600000 : (⟨S_, .i32⟩ : BufTy).Contents (Elt F) → (⟨S1600000, .i32⟩ : BufTy).Contents (Elt F)),
    binary main_v1 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v80 (broadcastInDim S1600000 ![] bcast_S_S1600000 : (⟨S_, .i32⟩ : BufTy).Contents (Elt F) → (⟨S1600000, .i32⟩ : BufTy).Contents (Elt F)),
    binary main_v1 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v52 main_v83 main_v84 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v77 main_v85 (broadcastInDim S1600000x1 ![0] bcast_S1600000_S1600000x1_0 : (⟨S1600000, .f32⟩ : BufTy).Contents (Elt F) → (⟨S1600000x1, .f32⟩ : BufTy).Contents (Elt F)),
    unary main_v85 main_v86 (broadcastInDim S1600000x40 ![0, 1] bcast_S1600000x1_S1600000x40_0_1 : (⟨S1600000x1, .f32⟩ : BufTy).Contents (Elt F) → (⟨S1600000x40, .f32⟩ : BufTy).Contents (Elt F)),
    binary main_v84 main_v86 main_v87 (mulf : (⟨S1600000x40, .f32⟩ : BufTy).Contents (Elt F) → (⟨S1600000x40, .f32⟩ : BufTy).Contents (Elt F) → (⟨S1600000x40, .f32⟩ : BufTy).Contents (Elt F)),
    nullary main_cst_19 (constant S_ .f32 0x00000000#32),
    unary main_cst_19 main_v88 (broadcastInDim S100000x40 ![] bcast_S_S100000x40 : (⟨S_, .f32⟩ : BufTy).Contents (Elt F) → (⟨S100000x40, .f32⟩ : BufTy).Contents (Elt F)),
    unary main_v3 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    binary main_v61 main_v61 main_v91 (mulf : (⟨S100000, .f32⟩ : BufTy).Contents (Elt F) → (⟨S100000, .f32⟩ : BufTy).Contents (Elt F) → (⟨S100000, .f32⟩ : BufTy).Contents (Elt F)),
    unary main_v91 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x40 ![0, 1] bcast_S100000x1_S100000x40_0_1 : (⟨S100000x1, .f32⟩ : BufTy).Contents (Elt F) → (⟨S100000x40, .f32⟩ : BufTy).Contents (Elt F)),
    binary main_v52 main_v93 main_v94 (mulf : (⟨S100000x40, .f32⟩ : BufTy).Contents (Elt F) → (⟨S100000x40, .f32⟩ : BufTy).Contents (Elt F) → (⟨S100000x40, .f32⟩ : BufTy).Contents (Elt F)),
    binary main_v90 main_v94 main_v95 (addf : (⟨S100000x40, .f32⟩ : BufTy).Contents (Elt F) → (⟨S100000x40, .f32⟩ : BufTy).Contents (Elt F) → (⟨S100000x40, .f32⟩ : BufTy).Contents (Elt F)),
    unary main_arg6 main_v96 (broadcastInDim S1x40 ![1] bcast_S40_S1x40_1 : (⟨S40, .f32⟩ : BufTy).Contents (Elt F) → (⟨S1x40, .f32⟩ : BufTy).Contents (Elt F)),
    unary main_v96 main_v97 (broadcastInDim S100000x40 ![0, 1] bcast_S1x40_S100000x40_0_1 : (⟨S1x40, .f32⟩ : BufTy).Contents (Elt F) → (⟨S100000x40, .f32⟩ : BufTy).Contents (Elt F)),
    binary main_v95 main_v97 main_v98 (addf : (⟨S100000x40, .f32⟩ : BufTy).Contents (Elt F) → (⟨S100000x40, .f32⟩ : BufTy).Contents (Elt F) → (⟨S100000x40, .f32⟩ : BufTy).Contents (Elt F)) ]

/-- Operations 128 … 142: the log-softmax of each row. -/
abbrev ops3 : List (HloOp τ sig (Elt F)) :=
  [ TRef.nullary (TRef.of (T := ⟨S_, .f32⟩) main_call3_cst) (constant S_ .f32 0xFF800000#32),
    TRef.binary (TRef.of (T := ⟨S100000x40, .f32⟩) main_v98) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v98) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v99) subf ]

theorem ops_split : (ops : List (HloOp τ sig (Elt F))) = ops1 ++ (ops2 ++ ops3) := rfl

/-- The fold over an appended list is the fold over the second part of the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l₁ ih => exact ih _

theorem after_ops (V : Valuation τ sig (Elt F)) : after ops V = after ops3 (after ops2 (after ops1 V)) := by
  rw [ops_split, after_append, after_append]

end Lists

end Cert.ReferenceIdeal.Fold

end
-- ==== Proof.RefHost.lean ====
/-
  The reference's dense stages in the host's own spelling, as definitions at any float instance `F` (so that a fold of the
  program's operations can be compared with them without anything being evaluated):
  * `hostComb64`, `hostComb40`: `agg + h · d + b` with the per-row `d` and the per-column `b` each broadcast in two steps;
  * `hostRelu`: the maximum with a broadcast zero;  `hostLsm`: the row-wise log-softmax as jax lowers it;
  * `hostLayer1`, `hostLayer2`: a whole layer from the arguments — feature transform, edge quantities, aggregation, combine;
  * `hostNet`: the two layers and the log-softmax.
-/
import proofs.«133283_j49289044689250_1_alg».proof.Proof.RefRunP
import proofs.«133283_j49289044689250_1_alg».proof.Proof.HostChain
import Idealize.ShloMosaic.Lib.ValueIdx

set_option maxRecDepth 16384

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable {F : FTy → Type} [FloatOps F]

def hostComb64 (h agg : FVec F S100000x64 .f32) (d : FVec F S100000 .f32) (b : FVec F S64 .f32) : FVec F S100000x64 .f32 :=
  addf (addf agg (mulf h (broadcastInDim S100000x64 ![0, 1] bcast_S100000x1_S100000x64_0_1 (broadcastInDim S100000x1 ![0] bcast_S100000_S100000x1_0 d)))) (broadcastInDim S100000x64 ![0, 1] bcast_S1x64_S100000x64_0_1 (broadcastInDim S1x64 ![1] bcast_S64_S1x64_1 b))

def hostComb40 (h agg : FVec F S100000x40 .f32) (d : FVec F S100000 .f32) (b : FVec F S40 .f32) : FVec F S100000x40 .f32 :=
  addf (addf agg (mulf h (broadcastInDim S100000x40 ![0, 1] bcast_S100000x1_S100000x40_0_1 (broadcastInDim S100000x1 ![0] bcast_S100000_S100000x1_0 d)))) (broadcastInDim S100000x40 ![0, 1] bcast_S1x40_S100000x40_0_1 (broadcastInDim S1x40 ![1] bcast_S40_S1x40_1 b))

def hostRelu (v : FVec F S100000x64 .f32) : FVec F S100000x64 .f32 :=
  maximumf v (broadcastInDim S100000x64 ![] bcast_S_S100000x64 (constant S_ .f32 0x00000000#32))

/-- The row maximum as the host takes it: a reduce with a maximum body from `-∞`, joined once more with a broadcast `-∞`. -/
def hostRowMax (v : FVec F S100000x40 .f32) : FVec F S100000 .f32 :=
  maximumf (broadcastInDim S100000 ![] bcast_S_S100000 (constant S_ .f32 0xFF800000#32))
    (Host.reduce FloatOps.maximumf v (constant S_ .f32 0xFF800000#32) reducesTo_S100000x40_S100000_d1 h_S_)

def hostShift (v : FVec F S100000x40 .f32) : FVec F S100000x40 .f32 :=
  subf v (broadcastInDim S100000x40 ![0, 1] bcast_S100000x1_S100000x40_0_1 (broadcastInDim S100000x1 ![0] bcast_S100000_S100000x1_0 (hostRowMax v)))

def hostLsm (v : FVec F S100000x40 .f32) : FVec F S100000x40 .f32 :=
  subf (hostShift v)
    (broadcastInDim S100000x40 ![0, 1] bcast_S100000x1_S100000x40_0_1 (Host.log (broadcastInDim S100000x1 ![0] bcast_S100000_S100000x1_0
      (Host.reduceAdd (Host.exp (hostShift v)) (constant S_ .f32 0x00000000#32) reducesTo_S100000x40_S100000_d1 h_S_))))

def hostLayer1 (x : FVec F S100000x128 .f32) (ei : IVec S2x1600000 32) (ew : FVec F S1600000 .f32) (w1 : FVec F S128x64 .f32) (b1 : FVec F S64 .f32) :
    FVec F S100000x64 .f32 :=
  hostRelu (hostComb64 (Host.dotGeneral dot_S100000x128_S128x64_S100000x64_1_0_0_1_n_n none x w1)
    (Cert.KernelIdeal.Edges.agg64 (Host.dotGeneral dot_S100000x128_S128x64_S100000x64_1_0_0_1_n_n none x w1) (Cert.KernelIdeal.Edges.edgeSrc ei) (Cert.KernelIdeal.Edges.edgeDst ei) (Cert.KernelIdeal.Edges.edgeCoef (Cert.KernelIdeal.Edges.edgeSrc ei) (Cert.KernelIdeal.Edges.edgeDst ei) ew))
    (Cert.KernelIdeal.Edges.selfLoop (Cert.KernelIdeal.Edges.edgeDst ei) ew) b1)

def hostLayer2 (o1 : FVec F S100000x64 .f32) (src dst : IVec S1600000 32) (ew : FVec F S1600000 .f32) (w2 : FVec F S64x40 .f32) (b2 : FVec F S40 .f32) :
    FVec F S100000x40 .f32 :=
  hostComb40 (Host.dotGeneral dot_S100000x64_S64x40_S100000x40_1_0_0_1_n_n none o1 w2)
    (Cert.KernelIdeal.Edges.agg40 (Host.dotGeneral dot_S100000x64_S64x40_S100000x40_1_0_0_1_n_n none o1 w2) src dst (Cert.KernelIdeal.Edges.edgeCoef src dst ew))
    (Cert.KernelIdeal.Edges.selfLoop dst ew) b2

def hostNet (x : FVec F S100000x128 .f32) (ei : IVec S2x1600000 32) (ew : FVec F S1600000 .f32) (w1 : FVec F S128x64 .f32) (b1 : FVec F S64 .f32)
    (w2 : FVec F S64x40 .f32) (b2 : FVec F S40 .f32) : FVec F S100000x40 .f32 :=
  hostLsm (hostLayer2 (hostLayer1 x ei ew w1 b1) (Cert.KernelIdeal.Edges.edgeSrc ei) (Cert.KernelIdeal.Edges.edgeDst ei) ew w2 b2)

end Cert.ReferenceIdeal.Fold

end
-- ==== Proof.RefStretch1.lean ====
/-
  The first stretch of the reference, at any float instance: from any buffer contents `V` it leaves in `main_v51` the first layer
  in the host's spelling (`hostLayer1`) of the argument buffers as it found them, and leaves the argument buffers as they were.
-/
import proofs.«133283_j49289044689250_1_alg».proof.Proof.RefOps
import proofs.«133283_j49289044689250_1_alg».proof.Proof.RefHost

set_option maxRecDepth 16384

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable {F : FTy → Type} [FloatOps F] (V : Valuation τ sig (Elt F))

set_option maxHeartbeats 8000000 in
theorem after1_v51 :
    after ops1 V (Proc.devRef .tc main_v51)
      = hostLayer1 (V (Proc.devRef .tc main_arg0)) (V (Proc.devRef .tc main_arg1)) (V (Proc.devRef .tc main_arg2)) (V (Proc.devRef .tc main_arg3)) (V (Proc.devRef .tc main_arg4)) := by
  dsimp only [ops1]; after_results_simp
  simp only [TRef.toBuf, TRef.ofBuf, cast_eq, id_eq]
  rfl

theorem after1_v1 : after ops1 V (Proc.devRef .tc main_v1) = Cert.KernelIdeal.Edges.edgeSrc (V (Proc.devRef .tc main_arg1)) := by
  dsimp only [ops1]; after_results_simp
  rfl
theorem after1_v3 : after ops1 V (Proc.devRef .tc main_v3) = Cert.KernelIdeal.Edges.edgeDst (V (Proc.devRef .tc main_arg1)) := by
  dsimp only [ops1]; after_results_simp
  rfl
theorem after1_arg1 : after ops1 V (Proc.devRef .tc main_arg1) = V (Proc.devRef .tc main_arg1) := by
  dsimp only [ops1]; after_results_simp
theorem after1_arg2 : after ops1 V (Proc.devRef .tc main_arg2) = V (Proc.devRef .tc main_arg2) := by
  dsimp only [ops1]; after_results_simp
theorem after1_arg5 : after ops1 V (Proc.devRef .tc main_arg5) = V (Proc.devRef .tc main_arg5) := by
  dsimp only [ops1]; after_results_simp
theorem after1_arg6 : after ops1 V (Proc.devRef .tc main_arg6) = V (Proc.devRef .tc main_arg6) := by
  dsimp only [ops1]; after_results_simp

end Cert.ReferenceIdeal.Fold

end
-- ==== Proof.RefStretch2.lean ====
/-
  The second stretch of the reference, at any float instance: from any buffer contents `V` it leaves in `main_v98` the second
  layer's combine stage in the host's spelling (`hostLayer2`) of what `main_v51` held, of the source and target lists the first stretch left in `main_v1` and `main_v3`, and of the argument
  buffers — the degrees and coefficients computed once more from them.
-/
import proofs.«133283_j49289044689250_1_alg».proof.Proof.RefOps
import proofs.«133283_j49289044689250_1_alg».proof.Proof.RefHost

set_option maxRecDepth 16384

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable {F : FTy → Type} [FloatOps F] (V : Valuation τ sig (Elt F))

set_option maxHeartbeats 8000000 in
theorem after2_v98 :
    after ops2 V (Proc.devRef .tc main_v98)
      = hostLayer2 (V (Proc.devRef .tc main_v51)) (V (Proc.devRef .tc main_v1)) (V (Proc.devRef .tc main_v3)) (V (Proc.devRef .tc main_arg2)) (V (Proc.devRef .tc main_arg5)) (V (Proc.devRef .tc main_arg6)) := by
  dsimp only [ops2]; after_results_simp
  simp only [TRef.toBuf, TRef.ofBuf, cast_eq, id_eq]
  rfl

end Cert.ReferenceIdeal.Fold

end
-- ==== Proof.LibTypedRefs.lean ====
/-
  A typed buffer reference moves a value of its type into the buffer's own contents type and back along the equation
  between the two types.  Going there and back is the identity, in either order, for any reference whatever: the two
  transports are along an equation and its inverse.  An inlined call writes every internal value through such a pair.
-/
import Idealize.ShloMosaic.Lib.StableHlo

namespace Cert.TypedRefs

open Idealize.ShloMosaic Idealize.ShloMosaic.StableHlo

variable {sig : RefSig} {T : BufTy} {Val : EltTy → Type}

/-- Into the buffer's contents type and back. -/
theorem ofBuf_toBuf (x : TRef sig T) (v : T.Contents Val) : x.ofBuf (x.toBuf v) = v := by
  obtain ⟨r, h, hd, hs⟩ := x
  subst h
  rfl

/-- Out of the buffer's contents type and back in. -/
theorem toBuf_ofBuf (x : TRef sig T) (v : x.ref.ty.Contents Val) : x.toBuf (x.ofBuf v) = v := by
  obtain ⟨r, h, hd, hs⟩ := x
  subst h
  rfl

end Cert.TypedRefs
-- ==== Proof.RefStretch3.lean ====
/-
  The third stretch of the reference, at any float instance: from any buffer contents `V` it leaves in the result buffer the
  host's row-wise log-softmax (`hostLsm`) of what `main_v98` held.
-/
import proofs.«133283_j49289044689250_1_alg».proof.Proof.RefOps
import proofs.«133283_j49289044689250_1_alg».proof.Proof.RefHost
import proofs.«133283_j49289044689250_1_alg».proof.Proof.LibTypedRefs

set_option maxRecDepth 16384

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable {F : FTy → Type} [FloatOps F] (V : Valuation τ sig (Elt F))

set_option maxHeartbeats 8000000 in
theorem after3_result : after ops3 V (Proc.devRef .tc main_v99) = hostLsm (V (Proc.devRef .tc main_v98)) := by
  dsimp only [ops3]; after_results_simp
  simp only [Cert.TypedRefs.ofBuf_toBuf]
  simp only [TRef.toBuf, TRef.ofBuf, cast_eq]
  rfl

end Cert.ReferenceIdeal.Fold

end
-- ==== Proof.RefFold.lean ====
/-
  The reference's result buffer after its 142 operations, at any float instance and from any buffer contents: the three
  stretches composed are the two layers and the log-softmax in the host's spelling (`hostNet`) of the argument buffers.
-/
import proofs.«133283_j49289044689250_1_alg».proof.Proof.RefOps
import proofs.«133283_j49289044689250_1_alg».proof.Proof.RefHost
import proofs.«133283_j49289044689250_1_alg».proof.Proof.RefStretch1
import proofs.«133283_j49289044689250_1_alg».proof.Proof.RefStretch2
import proofs.«133283_j49289044689250_1_alg».proof.Proof.RefStretch3

set_option maxRecDepth 16384

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable {F : FTy → Type} [FloatOps F]

theorem after_result (V : Valuation τ sig (Elt F)) :
    after ops V (Proc.devRef .tc main_v99)
      = hostNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops, after3_result, after2_v98, after1_v51, after1_v1, after1_v3, after1_arg2, after1_arg5, after1_arg6]
  rfl

end Cert.ReferenceIdeal.Fold

end
-- ==== Proof.RefSpelling.lean ====
/-
  The host's spellings of the dense stages, as whole arrays over the reference's shapes: its `dot_general`s are the feature
  transforms `mm`; its combine stage followed by the maximum with a broadcast zero is `combRelu` of the column and row forms
  of the coefficients; its combine stage followed by the row-wise log-softmax is `combLsm`.
-/
import proofs.«133283_j49289044689250_1_alg».proof.Proof.RefRunP
import proofs.«133283_j49289044689250_1_alg».proof.Proof.LibGcnSelfLoop

set_option maxRecDepth 16384

noncomputable section

namespace Cert.ReferenceIdeal.Fold

open Cert.ReferenceIdeal Cert.ReferenceIdeal.Gen Cert.ReferenceIdeal.ValueP Cert.GcnSelfLoop
open Idealize.ShloMosaic Idealize.ShloMosaic.TcCoe Idealize.SL.Sem Idealize.ShloMosaic.StableHlo Idealize.ShloMosaic.ValueIdx

/-- The host's log-softmax of an array, every entry: the log-softmax of its row. -/
theorem lsm_host_eq (v : FVec Ideal S100000x40 .f32) :
    subf (subf v (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) v (constant (F := Ideal) S_ .f32 0xFF800000#32) reducesTo_S100000x40_S100000_d1 h_S_)))))
      (broadcastInDim S100000x40 ![0, 1] bcast_S100000x1_S100000x40_0_1 (Host.log (broadcastInDim S100000x1 ![0] bcast_S100000_S100000x1_0
        (Host.reduceAdd (Host.exp (subf v (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) v (constant (F := Ideal) S_ .f32 0xFF800000#32) reducesTo_S100000x40_S100000_d1 h_S_)))))) (constant (F := Ideal) S_ .f32 0x00000000#32) reducesTo_S100000x40_S100000_d1 h_S_))))
      = fun i => lsmRow (fun k => v (ix2 (i 0) k)) (i 1) := by
  funext i
  obtain ⟨p, q, rfl⟩ : ∃ (p : Fin 100000) (q : Fin 40), i = ix2 p q := ⟨i 0, i 1, eq_ix2 i⟩
  exact host_lsm_apply v reducesTo_S100000x40_S100000_d1 (by decide) h_S_ bcast_S_S100000 bcast_S100000_S100000x1_0
    bcast_S100000x1_S100000x40_0_1 _ rfl _ rfl _ rfl p q

theorem dot1_eq_mm (x : FVec Ideal S100000x128 .f32) (w : FVec Ideal S128x64 .f32) :
    Host.dotGeneral (F := Ideal) dot_S100000x128_S128x64_S100000x64_1_0_0_1_n_n none x w = mm x w := by
  funext i
  obtain ⟨p, q, rfl⟩ : ∃ (p : Fin 100000) (q : Fin 64), i = ix2 p q := ⟨i 0, i 1, eq_ix2 i⟩
  exact host_mm_apply dot_S100000x128_S128x64_S100000x64_1_0_0_1_n_n rfl x w p q

theorem dot2_eq_mm (x : FVec Ideal S100000x64 .f32) (w : FVec Ideal S64x40 .f32) :
    Host.dotGeneral (F := Ideal) dot_S100000x64_S64x40_S100000x40_1_0_0_1_n_n none x w = mm x w := by
  funext i
  obtain ⟨p, q, rfl⟩ : ∃ (p : Fin 100000) (q : Fin 40), i = ix2 p q := ⟨i 0, i 1, eq_ix2 i⟩
  exact host_mm_apply dot_S100000x64_S64x40_S100000x40_1_0_0_1_n_n rfl x w p q

/-- The first layer's combine stage and floor at zero in the host's spelling is `combRelu` of the column and row forms. -/
theorem relu_comb_host_eq (h agg : FVec Ideal S100000x64 .f32) (d : FVec Ideal S100000 .f32)
    (b : FVec Ideal S64 .f32) (hc : S100000.ShapeCasts S100000x1) (hr : S64.ShapeCasts S1x64) :
    maximumf (addf (addf agg (mulf h (broadcastInDim S100000x64 ![0, 1] bcast_S100000x1_S100000x64_0_1 (broadcastInDim S100000x1 ![0] bcast_S100000_S100000x1_0 d)))) (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = combRelu h agg (shapeCast S100000x1 d hc) (shapeCast S1x64 b hr) := by
  funext i
  obtain ⟨p, q, rfl⟩ : ∃ (p : Fin 100000) (q : Fin 64), i = ix2 p q := ⟨i 0, i 1, eq_ix2 i⟩
  refine (host_relu_apply _ bcast_S_S100000x64 p q).trans ?_
  refine (congrArg reluAt (host_comb_apply h agg d b bcast_S100000_S100000x1_0 bcast_S100000x1_S100000x64_0_1 bcast_S64_S1x64_1 bcast_S1x64_S100000x64_0_1 p q)).trans ?_
  show _ = reluAt (combAt h agg (fun r => shapeCast S100000x1 d hc (ix2 r (0 : Fin 1))) (fun k => shapeCast S1x64 b hr (ix2 (0 : Fin 1) k)) p q)
  simp only [combAt, Cert.Columns.shapeCast_a_a1_apply, shapeCast_a_1a_apply]

/-- The second layer's combine stage in the host's spelling followed by the row-wise log-softmax is `combLsm`. -/
theorem lsm_comb_host_eq (h agg : FVec Ideal S100000x40 .f32) (d : FVec Ideal S100000 .f32)
    (b : FVec Ideal S40 .f32) (hc : S100000.ShapeCasts S100000x1) (hr : S40.ShapeCasts S1x40) :
    (fun i : S100000x40.Idx => lsmRow (fun k => (addf (F := Ideal) (φ := .f32) (addf agg (mulf h (broadcastInDim S100000x40 ![0, 1] bcast_S100000x1_S100000x40_0_1 (broadcastInDim S100000x1 ![0] bcast_S100000_S100000x1_0 d)))) (broadcastInDim S100000x40 ![0, 1] bcast_S1x40_S100000x40_0_1 (broadcastInDim S1x40 ![1] bcast_S40_S1x40_1 b)) : S100000x40.Idx → EReal) (ix2 (i 0) k)) (i 1))
      = combLsm h agg (shapeCast S100000x1 d hc) (shapeCast S1x40 b hr) := by
  funext i
  obtain ⟨p, q, rfl⟩ : ∃ (p : Fin 100000) (q : Fin 40), i = ix2 p q := ⟨i 0, i 1, eq_ix2 i⟩
  show lsmRow _ q = lsmRow (fun k => combAt h agg (fun r => shapeCast S100000x1 d hc (ix2 r (0 : Fin 1))) (fun k => shapeCast S1x40 b hr (ix2 (0 : Fin 1) k)) p k) q
  refine congrArg (fun f : Fin 40 → EReal => lsmRow f q) (funext fun k => ?_)
  refine (host_comb_apply h agg d b bcast_S100000_S100000x1_0 bcast_S100000x1_S100000x40_0_1 bcast_S40_S1x40_1 bcast_S1x40_S100000x40_0_1 p k).trans ?_
  simp only [combAt, Cert.Columns.shapeCast_a_a1_apply, shapeCast_a_1a_apply]

end Cert.ReferenceIdeal.Fold

end
-- ==== Proof.RefAlgebra.lean ====
/-
  On the extended reals the reference's network in the host's spelling (`hostNet`) is the two-layer convolution `gcn` of the same
  arguments and of the edge quantities computed from them: each `dot_general` is the feature transform `mm`, the first combine
  stage with the maximum with zero is `combRelu`, the second combine stage under the row-wise log-softmax is `combLsm`.  Stated
  over plain arrays; the gathers and scatter-adds stay inside the edge quantities and the aggregations, unopened.
-/
import proofs.«133283_j49289044689250_1_alg».proof.Proof.RefSpelling
import proofs.«133283_j49289044689250_1_alg».proof.Proof.RefHost
import proofs.«133283_j49289044689250_1_alg».proof.Proof.KernelValue

set_option maxRecDepth 16384

noncomputable section

namespace Cert.ReferenceIdeal.Fold

open Cert.ReferenceIdeal Cert.ReferenceIdeal.Gen Cert.ReferenceIdeal.ValueP Cert.GcnSelfLoop
open Idealize.ShloMosaic Idealize.ShloMosaic.TcCoe Idealize.SL.Sem Idealize.ShloMosaic.StableHlo Idealize.ShloMosaic.ValueIdx

open Cert.KernelIdeal.Edges

theorem hostLsm_eq (v : FVec Ideal S100000x40 .f32) :
    hostLsm v = fun i => lsmRow (fun k => v (ix2 (i 0) k)) (i 1) := by
  unfold hostLsm hostShift hostRowMax
  exact lsm_host_eq v

theorem hostLayer1_eq (x : FVec Ideal S100000x128 .f32) (ei : IVec S2x1600000 32) (ew : FVec Ideal S1600000 .f32) (w1 : FVec Ideal S128x64 .f32) (b1 : FVec Ideal S64 .f32) :
    hostLayer1 x ei ew w1 b1
      = combRelu (mm x w1) (agg64 (F := Ideal) (mm x w1) (edgeSrc ei) (edgeDst ei) (edgeCoef (edgeSrc ei) (edgeDst ei) ew))
          (shapeCast Cert.KernelIdeal.S100000x1 (selfLoop (edgeDst ei) ew) Cert.KernelIdeal.Gen.shapeCasts_S100000_S100000x1)
          (shapeCast Cert.KernelIdeal.S1x64 b1 Cert.KernelIdeal.Gen.shapeCasts_S64_S1x64) := by
  unfold hostLayer1 hostRelu hostComb64
  rw [dot1_eq_mm]
  exact relu_comb_host_eq _ _ _ _ _ _

theorem hostLsm_comb_eq (h agg : FVec Ideal S100000x40 .f32) (d : FVec Ideal S100000 .f32) (b : FVec Ideal S40 .f32) :
    hostLsm (hostComb40 h agg d b)
      = combLsm h agg (shapeCast Cert.KernelIdeal.S100000x1 d Cert.KernelIdeal.Gen.shapeCasts_S100000_S100000x1)
          (shapeCast Cert.KernelIdeal.S1x40 b Cert.KernelIdeal.Gen.shapeCasts_S40_S1x40) := by
  rw [hostLsm_eq]
  unfold hostComb40
  exact lsm_comb_host_eq h agg d b _ _

/-- The host-spelled network is the two-layer convolution. -/
theorem hostNet_eq_gcn (x : FVec Ideal S100000x128 .f32) (ei : IVec S2x1600000 32) (ew : FVec Ideal S1600000 .f32) (w1 : FVec Ideal S128x64 .f32)
    (b1 : FVec Ideal S64 .f32) (w2 : FVec Ideal S64x40 .f32) (b2 : FVec Ideal S40 .f32) :
    hostNet x ei ew w1 b1 w2 b2
      = Cert.KernelIdeal.Folded.gcn x w1 b1 w2 b2 (edgeSrc ei) (edgeDst ei) (edgeCoef (edgeSrc ei) (edgeDst ei) ew) (selfLoop (edgeDst ei) ew) := by
  unfold hostNet hostLayer2
  rw [hostLayer1_eq, dot2_eq_mm, hostLsm_comb_eq]
  rfl

end Cert.ReferenceIdeal.Fold

end
-- ==== Proof.lean ====
/-
  The certificate of the two-layer graph convolution: a Pallas kernel program of four grid regions (two feature
  transforms `X · W` on the matrix unit with operands rounded to bfloat16, two combine stages `agg + h · d² + b` followed by
  a floor at zero and by a row-wise log-softmax) among host gathers and scatter-adds, against the plain jnp reference.

  On the extended reals a change of float format is the identity, a matrix product into a zero accumulator and the host's
  `dot_general` are the same sums, and both programs apply the same operations in the same grouping; the reference takes
  one more `max` with `-∞` inside its log-softmax, which changes nothing.  No law used needs finiteness, so the
  precondition is never opened.

  * The kernel's result: every weakly fair execution ends with the result buffer at the last boundary's contents
    (`KernelRun`), which read back through the four regions (each a whole-array function of the arrays it was entered with:
    `Region0 … Region3`) and the host stretches between them (`KernelValue`, `KernelEntry`) is the term `gcn` of the
    arguments and of the edge quantities computed from them (`HostChain`).
  * The reference's result: the fold of its 142 host operations over the launch contents (`RefRunP`), read in three
    stretches at any float instance (`RefOps`, `RefStretch1 … 3`, `RefFold`), is the network in the host's spelling (`RefHost`),
    which on the extended reals is the same term `gcn` (`RefSpelling`, `RefAlgebra`).
  * The frames of the two kernel programs are the generated ones; the reference's is its run with the result dropped;
    the idealization rewrote no operation, so `preserves` is `True`.
-/
import proofs.«133283_j49289044689250_1_alg».proof.Defs
import proofs.«133283_j49289044689250_1_alg».proof.Proof.Gen.Kernel
import proofs.«133283_j49289044689250_1_alg».proof.Proof.Gen.Kernel.Skeleton
import proofs.«133283_j49289044689250_1_alg».proof.Proof.Gen.Kernel.Launch
import proofs.«133283_j49289044689250_1_alg».proof.Proof.Gen.Kernel.Points
import proofs.«133283_j49289044689250_1_alg».proof.Proof.Gen.Kernel.Frame
import proofs.«133283_j49289044689250_1_alg».proof.Proof.Gen.KernelIdeal
import proofs.«133283_j49289044689250_1_alg».proof.Proof.Gen.KernelIdeal.Skeleton
import proofs.«133283_j49289044689250_1_alg».proof.Proof.Gen.KernelIdeal.Launch
import proofs.«133283_j49289044689250_1_alg».proof.Proof.Gen.KernelIdeal.Points
import proofs.«133283_j49289044689250_1_alg».proof.Proof.Gen.KernelIdeal.Frame
import proofs.«133283_j49289044689250_1_alg».proof.Proof.Gen.ReferenceIdeal
import proofs.«133283_j49289044689250_1_alg».proof.Proof.Gen.Pre_finite_inputs
import proofs.«133283_j49289044689250_1_alg».proof.Proof.KernelRun
import proofs.«133283_j49289044689250_1_alg».proof.Proof.KernelValue
import proofs.«133283_j49289044689250_1_alg».proof.Proof.KernelEntry
import proofs.«133283_j49289044689250_1_alg».proof.Proof.RefRunP
import proofs.«133283_j49289044689250_1_alg».proof.Proof.RefFold
import proofs.«133283_j49289044689250_1_alg».proof.Proof.RefAlgebra
import Idealize.ShloMosaic.Adequacy
import Idealize.ShloMosaic.Init

set_option maxRecDepth 16384

noncomputable section

namespace Cert.Proof

open Idealize.ShloMosaic Idealize.ShloMosaic.TcCoe Idealize.SL.Sem

/-- The value both programs end at, on core `c`, from the kernel program's launch memory `m`. -/
def value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v63) :=
  Cert.KernelIdeal.Folded.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (Cert.KernelIdeal.Edges.edgeSrc (m ((c.tc : Thread Cert.KernelIdeal.nD Cert.KernelIdeal.τ).loc Cert.KernelIdeal.main_arg1))) (Cert.KernelIdeal.Edges.edgeDst (m ((c.tc : Thread Cert.KernelIdeal.nD Cert.KernelIdeal.τ).loc Cert.KernelIdeal.main_arg1)))
    (Cert.KernelIdeal.Edges.edgeCoef (F := Ideal) (Cert.KernelIdeal.Edges.edgeSrc (m ((c.tc : Thread Cert.KernelIdeal.nD Cert.KernelIdeal.τ).loc Cert.KernelIdeal.main_arg1))) (Cert.KernelIdeal.Edges.edgeDst (m ((c.tc : Thread Cert.KernelIdeal.nD Cert.KernelIdeal.τ).loc Cert.KernelIdeal.main_arg1))) (m ((c.tc : Thread Cert.KernelIdeal.nD Cert.KernelIdeal.τ).loc Cert.KernelIdeal.main_arg2)))
    (Cert.KernelIdeal.Edges.selfLoop (F := Ideal) (Cert.KernelIdeal.Edges.edgeDst (m ((c.tc : Thread Cert.KernelIdeal.nD Cert.KernelIdeal.τ).loc Cert.KernelIdeal.main_arg1))) (m ((c.tc : Thread Cert.KernelIdeal.nD Cert.KernelIdeal.τ).loc Cert.KernelIdeal.main_arg2)))

/-- The kernel's last boundary holds `value` at the result. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W9 m ρ c (Proc.devRef .tc Cert.KernelIdeal.main_v63) = value m c := by
  rw [Cert.KernelIdeal.Folded.W9_result, Cert.KernelIdeal.Entry.W3_arg0, Cert.KernelIdeal.Entry.W3_arg3, Cert.KernelIdeal.Entry.W3_arg4, Cert.KernelIdeal.Entry.W3_arg5, Cert.KernelIdeal.Entry.W3_arg6,
    Cert.KernelIdeal.Entry.W3_v1, Cert.KernelIdeal.Entry.W3_v3, Cert.KernelIdeal.Entry.W3_v13, Cert.KernelIdeal.Entry.W3_v29]
  rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs, from memories agreeing on the arguments, end at `value`. -/
theorem algebraic : Cert.algebraic_KernelIdeal_ReferenceIdeal := by
  intro m ρ m' ρ' _ hagree
  refine ⟨fun c => value m c, ?_, ?_⟩
  · exact (θ_run Cert.KernelIdeal.defs _ _).mono (fun r h c => ⟨(h c).1.trans (kernel_value m ρ c), (h c).2⟩)
      (Cert.KernelIdeal.Named.run_named m ρ)
  · refine (θ_run Cert.ReferenceIdeal.defs _ _).mono (fun r h c => ⟨(h c).1.trans ?_, (h c).2⟩) (Cert.ReferenceIdeal.ValueP.run (F := Ideal) m' ρ')
    obtain ⟨a0, a1, a2, a3, a4, a5, a6⟩ := hagree c
    have e0 : StableHlo.launchContents m' c (Proc.devRef .tc Cert.ReferenceIdeal.main_arg0) = (m ((c.tc : Thread Cert.KernelIdeal.nD Cert.KernelIdeal.τ).loc Cert.KernelIdeal.main_arg0)) := a0
    have e1 : StableHlo.launchContents m' c (Proc.devRef .tc Cert.ReferenceIdeal.main_arg1) = (m ((c.tc : Thread Cert.KernelIdeal.nD Cert.KernelIdeal.τ).loc Cert.KernelIdeal.main_arg1)) := a1
    have e2 : StableHlo.launchContents m' c (Proc.devRef .tc Cert.ReferenceIdeal.main_arg2) = (m ((c.tc : Thread Cert.KernelIdeal.nD Cert.KernelIdeal.τ).loc Cert.KernelIdeal.main_arg2)) := a2
    have e3 : StableHlo.launchContents m' c (Proc.devRef .tc Cert.ReferenceIdeal.main_arg3) = (m ((c.tc : Thread Cert.KernelIdeal.nD Cert.KernelIdeal.τ).loc Cert.KernelIdeal.main_arg3)) := a3
    have e4 : StableHlo.launchContents m' c (Proc.devRef .tc Cert.ReferenceIdeal.main_arg4) = (m ((c.tc : Thread Cert.KernelIdeal.nD Cert.KernelIdeal.τ).loc Cert.KernelIdeal.main_arg4)) := a4
    have e5 : StableHlo.launchContents m' c (Proc.devRef .tc Cert.ReferenceIdeal.main_arg5) = (m ((c.tc : Thread Cert.KernelIdeal.nD Cert.KernelIdeal.τ).loc Cert.KernelIdeal.main_arg5)) := a5
    have e6 : StableHlo.launchContents m' c (Proc.devRef .tc Cert.ReferenceIdeal.main_arg6) = (m ((c.tc : Thread Cert.KernelIdeal.nD Cert.KernelIdeal.τ).loc Cert.KernelIdeal.main_arg6)) := a6
    rw [Cert.ReferenceIdeal.Fold.after_result, e0, e1, e2, e3, e4, e5, e6]
    exact Cert.ReferenceIdeal.Fold.hostNet_eq_gcn _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
